-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S7x1024x1024 : Shape := ⟨3, ![7, 1024, 1024]⟩
abbrev S1024x1024 : Shape := ⟨2, ![1024, 1024]⟩
abbrev S1x1024x1024 : Shape := ⟨3, ![1, 1024, 1024]⟩
abbrev S256x1024 : Shape := ⟨2, ![256, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S7x1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S2048x2048_S1024x1024_0_0 : ∀ a, (![0, 0] : Fin 2 → Nat) a + S1024x1024.size a ≤ S2048x2048.size a
  h_S1024x1024 : 0 < S1024x1024.numel
  inb_S2048x2048_S1024x1024_0_1024 : ∀ a, (![0, 1024] : Fin 2 → Nat) a + S1024x1024.size a ≤ S2048x2048.size a
  inb_S2048x2048_S1024x1024_1024_0 : ∀ a, (![1024, 0] : Fin 2 → Nat) a + S1024x1024.size a ≤ S2048x2048.size a
  inb_S2048x2048_S1024x1024_1024_1024 : ∀ a, (![1024, 1024] : Fin 2 → Nat) a + S1024x1024.size a ≤ S2048x2048.size a
  bitsLt_bf16_f32 : FTy.bits .bf16 < FTy.bits .f32
  inb_S7x1024x1024_S1x1024x1024_0_0_0 : ∀ a, (![0, 0, 0] : Fin 3 → Nat) a + S1x1024x1024.size a ≤ S7x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S7x1024x1024_S1x1024x1024_0_0_0 : (Rect.unit (s := S7x1024x1024) ![0, 0, 0] S1x1024x1024.size inb_S7x1024x1024_S1x1024x1024_0_0_0).PackedRows (EltTy.packing .bf16)
  inb_S7x1024x1024_S1x1024x1024_1_0_0 : ∀ a, (![1, 0, 0] : Fin 3 → Nat) a + S1x1024x1024.size a ≤ S7x1024x1024.size a
  packedbf16_S7x1024x1024_S1x1024x1024_1_0_0 : (Rect.unit (s := S7x1024x1024) ![1, 0, 0] S1x1024x1024.size inb_S7x1024x1024_S1x1024x1024_1_0_0).PackedRows (EltTy.packing .bf16)
  inb_S7x1024x1024_S1x1024x1024_2_0_0 : ∀ a, (![2, 0, 0] : Fin 3 → Nat) a + S1x1024x1024.size a ≤ S7x1024x1024.size a
  packedbf16_S7x1024x1024_S1x1024x1024_2_0_0 : (Rect.unit (s := S7x1024x1024) ![2, 0, 0] S1x1024x1024.size inb_S7x1024x1024_S1x1024x1024_2_0_0).PackedRows (EltTy.packing .bf16)
  inb_S7x1024x1024_S1x1024x1024_3_0_0 : ∀ a, (![3, 0, 0] : Fin 3 → Nat) a + S1x1024x1024.size a ≤ S7x1024x1024.size a
  packedbf16_S7x1024x1024_S1x1024x1024_3_0_0 : (Rect.unit (s := S7x1024x1024) ![3, 0, 0] S1x1024x1024.size inb_S7x1024x1024_S1x1024x1024_3_0_0).PackedRows (EltTy.packing .bf16)
  inb_S7x1024x1024_S1x1024x1024_4_0_0 : ∀ a, (![4, 0, 0] : Fin 3 → Nat) a + S1x1024x1024.size a ≤ S7x1024x1024.size a
  packedbf16_S7x1024x1024_S1x1024x1024_4_0_0 : (Rect.unit (s := S7x1024x1024) ![4, 0, 0] S1x1024x1024.size inb_S7x1024x1024_S1x1024x1024_4_0_0).PackedRows (EltTy.packing .bf16)
  inb_S7x1024x1024_S1x1024x1024_5_0_0 : ∀ a, (![5, 0, 0] : Fin 3 → Nat) a + S1x1024x1024.size a ≤ S7x1024x1024.size a
  packedbf16_S7x1024x1024_S1x1024x1024_5_0_0 : (Rect.unit (s := S7x1024x1024) ![5, 0, 0] S1x1024x1024.size inb_S7x1024x1024_S1x1024x1024_5_0_0).PackedRows (EltTy.packing .bf16)
  inb_S7x1024x1024_S1x1024x1024_6_0_0 : ∀ a, (![6, 0, 0] : Fin 3 → Nat) a + S1x1024x1024.size a ≤ S7x1024x1024.size a
  packedbf16_S7x1024x1024_S1x1024x1024_6_0_0 : (Rect.unit (s := S7x1024x1024) ![6, 0, 0] S1x1024x1024.size inb_S7x1024x1024_S1x1024x1024_6_0_0).PackedRows (EltTy.packing .bf16)
  inb_S512x2048_S256x1024_0_0 : ∀ a, (![0, 0] : Fin 2 → Nat) a + S256x1024.size a ≤ S512x2048.size a
  h_S256x1024 : 0 < S256x1024.numel
  inb_S512x2048_S256x1024_0_1024 : ∀ a, (![0, 1024] : Fin 2 → Nat) a + S256x1024.size a ≤ S512x2048.size a
  inb_S512x2048_S256x1024_256_0 : ∀ a, (![256, 0] : Fin 2 → Nat) a + S256x1024.size a ≤ S512x2048.size a
  inb_S512x2048_S256x1024_256_1024 : ∀ a, (![256, 1024] : Fin 2 → Nat) a + S256x1024.size a ≤ S512x2048.size a
  inb_S1x2048_S1x1024_0_0 : ∀ a, (![0, 0] : Fin 2 → Nat) a + S1x1024.size a ≤ S1x2048.size a
  h_S1x1024 : 0 < S1x1024.numel
  shapeCasts_S1x1024_S1x1024 : S1x1024.ShapeCasts S1x1024
  inb_S1x2048_S1x1024_0_1024 : ∀ a, (![0, 1024] : Fin 2 → Nat) a + S1x1024.size a ≤ S1x2048.size a
  broadcasts_S1x1024_S256x1024 : S1x1024.Broadcasts S256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x8192 : Shape := ⟨2, ![2048, 8192]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S8192x2048_S2048x8192_1_0 : S8192x2048.Transposes [1, 0] S2048x8192
  transposes_S2048x8192_S8192x2048_1_0 : S2048x8192.Transposes [1, 0] S8192x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S2048x2048_S2048x8192_S2048x8192_1_0_0_1_n_n_wf : DotDims.WF S2048x2048 S2048x8192 S2048x8192 [1] [0] [0] [1] [] []

variable [Facts₀]

def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf

class Facts : Prop extends Facts₀ where

variable [Facts]
-- ==== Proof.KernelPieces.lean ====
/-
  What one grid point's body leaves, as pure functions of what it loads.

  The body splits its block of 512 input rows into four quadrants `a11, a12, a21, a22` (256 rows by 1024 columns each),
  loads the two halves of the bias row and the seven planes of the weight scratch, forms Strassen's seven half-size
  products and stores the four output quadrants: the output block is therefore one array assembled from four quadrant
  values (`outBlock`), each a function of the input block, the bias row and the scratch (`pay11 … pay22`). At the first
  point the body first fills the scratch with the seven combinations of the weight's four quadrants
  (`w00 + w11, w00, w10 - w11, w01 - w00, w11, w00 + w10, w01 + w11`: `scratchOf`) and then reads them back, so the
  first point's output is `outBlock` at `scratchOf` of the weight block; at every later point the scratch still
  holds what the point before left, and the output is `outBlock` at that.
-/
import proofs.«164071_g50525995270225_cont_8to1_c_264_21_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

/-! ## The rectangles the body loads through -/

/-- The four quadrants of the 512 × 2048 input block. -/
abbrev rX00 : Rect S512x2048 := Rect.unit ![0, 0] S256x1024.size Facts₀.inb_S512x2048_S256x1024_0_0
abbrev rX01 : Rect S512x2048 := Rect.unit ![0, 1024] S256x1024.size Facts₀.inb_S512x2048_S256x1024_0_1024
abbrev rX10 : Rect S512x2048 := Rect.unit ![256, 0] S256x1024.size Facts₀.inb_S512x2048_S256x1024_256_0
abbrev rX11 : Rect S512x2048 := Rect.unit ![256, 1024] S256x1024.size Facts₀.inb_S512x2048_S256x1024_256_1024
/-- The two halves of the bias row. -/
abbrev rB0 : Rect S1x2048 := Rect.unit ![0, 0] S1x1024.size Facts₀.inb_S1x2048_S1x1024_0_0
abbrev rB1 : Rect S1x2048 := Rect.unit ![0, 1024] S1x1024.size Facts₀.inb_S1x2048_S1x1024_0_1024
/-- The four quadrants of the weight. -/
abbrev rW00 : Rect S2048x2048 := Rect.unit ![0, 0] S1024x1024.size Facts₀.inb_S2048x2048_S1024x1024_0_0
abbrev rW01 : Rect S2048x2048 := Rect.unit ![0, 1024] S1024x1024.size Facts₀.inb_S2048x2048_S1024x1024_0_1024
abbrev rW10 : Rect S2048x2048 := Rect.unit ![1024, 0] S1024x1024.size Facts₀.inb_S2048x2048_S1024x1024_1024_0
abbrev rW11 : Rect S2048x2048 := Rect.unit ![1024, 1024] S1024x1024.size Facts₀.inb_S2048x2048_S1024x1024_1024_1024
/-- The seven planes of the scratch. -/
abbrev rS0 : Rect S7x1024x1024 := Rect.unit ![0, 0, 0] S1x1024x1024.size Facts₀.inb_S7x1024x1024_S1x1024x1024_0_0_0
abbrev rS1 : Rect S7x1024x1024 := Rect.unit ![1, 0, 0] S1x1024x1024.size Facts₀.inb_S7x1024x1024_S1x1024x1024_1_0_0
abbrev rS2 : Rect S7x1024x1024 := Rect.unit ![2, 0, 0] S1x1024x1024.size Facts₀.inb_S7x1024x1024_S1x1024x1024_2_0_0
abbrev rS3 : Rect S7x1024x1024 := Rect.unit ![3, 0, 0] S1x1024x1024.size Facts₀.inb_S7x1024x1024_S1x1024x1024_3_0_0
abbrev rS4 : Rect S7x1024x1024 := Rect.unit ![4, 0, 0] S1x1024x1024.size Facts₀.inb_S7x1024x1024_S1x1024x1024_4_0_0
abbrev rS5 : Rect S7x1024x1024 := Rect.unit ![5, 0, 0] S1x1024x1024.size Facts₀.inb_S7x1024x1024_S1x1024x1024_5_0_0
abbrev rS6 : Rect S7x1024x1024 := Rect.unit ![6, 0, 0] S1x1024x1024.size Facts₀.inb_S7x1024x1024_S1x1024x1024_6_0_0

/-! ## The four output quadrants as functions of the loads -/

/-- Upper-left output quadrant: `((M1 + M4) - M5 + bias) + M7`. -/
def pay11 (x0 : Vec F S512x2048 .f32) (x2 : Vec F S1x2048 .f32) (cs : Vec F S7x1024x1024 .bf16) : FVec F S256x1024 .f32 :=
  k0_pay3 (k0_pay15 (View.ld x0 rX00)) (k0_pay16 (View.ld x0 rX01)) (k0_pay18 (View.ld x0 rX11)) (k0_pay19 (View.ld x2 rB0))
    (k0_pay21 (View.ld x0 rX00) (View.ld x0 rX11) (View.ld cs rS0)) (k0_pay24 (View.ld cs rS3))
    (constant S256x1024 .f32 0x00000000#32) (View.ld cs rS4) (View.ld cs rS6)

/-- Upper-right output quadrant: `(M3 + M5) + bias`. -/
def pay12 (x0 : Vec F S512x2048 .f32) (x2 : Vec F S1x2048 .f32) (cs : Vec F S7x1024x1024 .bf16) : FVec F S256x1024 .f32 :=
  k0_pay4 (k0_pay15 (View.ld x0 rX00)) (k0_pay16 (View.ld x0 rX01)) (k0_pay20 (View.ld x2 rB1))
    (k0_pay23 (View.ld x0 rX00) (View.ld cs rS2)) (View.ld cs rS4)

/-- Lower-left output quadrant: `(M2 + M4) + bias`. -/
def pay21 (x0 : Vec F S512x2048 .f32) (x2 : Vec F S1x2048 .f32) (cs : Vec F S7x1024x1024 .bf16) : FVec F S256x1024 .f32 :=
  k0_pay5 (k0_pay18 (View.ld x0 rX11)) (k0_pay19 (View.ld x2 rB0))
    (k0_pay22 (View.ld x0 rX10) (View.ld x0 rX11) (View.ld cs rS1)) (k0_pay24 (View.ld cs rS3))
    (constant S256x1024 .f32 0x00000000#32)

/-- Lower-right output quadrant: `((M1 - M2) + M3 + bias) + M6`. -/
def pay22 (x0 : Vec F S512x2048 .f32) (x2 : Vec F S1x2048 .f32) (cs : Vec F S7x1024x1024 .bf16) : FVec F S256x1024 .f32 :=
  k0_pay6 (k0_pay15 (View.ld x0 rX00)) (k0_pay17 (View.ld x0 rX10)) (k0_pay20 (View.ld x2 rB1))
    (k0_pay21 (View.ld x0 rX00) (View.ld x0 rX11) (View.ld cs rS0))
    (k0_pay22 (View.ld x0 rX10) (View.ld x0 rX11) (View.ld cs rS1))
    (k0_pay23 (View.ld x0 rX00) (View.ld cs rS2)) (View.ld cs rS5)

/-- The output block: the four quadrant values laid side by side. -/
def outBlock (x0 : Vec F S512x2048 .f32) (x2 : Vec F S1x2048 .f32) (cs : Vec F S7x1024x1024 .bf16) : Vec F S512x2048 .f32 :=
  View.canon
    [⟨Rect.unit ![256, 1024] ![256, 1024] Facts₀.inb_S512x2048_S256x1024_256_1024, pay22 x0 x2 cs⟩,
     ⟨Rect.unit ![256, 0] ![256, 1024] Facts₀.inb_S512x2048_S256x1024_256_0, pay21 x0 x2 cs⟩,
     ⟨Rect.unit ![0, 1024] ![256, 1024] Facts₀.inb_S512x2048_S256x1024_0_1024, pay12 x0 x2 cs⟩,
     ⟨Rect.unit ![0, 0] ![256, 1024] Facts₀.inb_S512x2048_S256x1024_0_0, pay11 x0 x2 cs⟩]

/-- The scratch after the first point's fill: plane `s` holds the `s`-th combination of the weight's quadrants. -/
def scratchOf (x1 : Vec F S2048x2048 .f32) : Vec F S7x1024x1024 .bf16 :=
  View.canon
    [⟨rS6, k0_pay14 (View.ld x1 rW01) (View.ld x1 rW11)⟩,
     ⟨rS5, k0_pay13 (k0_pay12 (View.ld x1 rW00) (View.ld x1 rW10))⟩,
     ⟨rS4, k0_pay11 (View.ld x1 rW11)⟩,
     ⟨rS3, k0_pay10 (View.ld x1 rW00) (View.ld x1 rW01)⟩,
     ⟨rS2, k0_pay9 (View.ld x1 rW10) (View.ld x1 rW11)⟩,
     ⟨rS1, k0_pay8 (View.ld x1 rW00)⟩,
     ⟨rS0, k0_pay7 (View.ld x1 rW00) (View.ld x1 rW11)⟩]

/-! ## The two cases of the body -/

/-- A later point: the output block is `outBlock` of the point's input block, the bias row and the scratch as the point
    before left it. -/
theorem outB_eq (c : Dev nD) (i : grid0.Coords) (arg1 : Memref sig .tc .vmem S512x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S7x1024x1024 .bf16) (harg5 : arg5.IsWhole) (hc0 : ¬cond0_0 i)
    (x0 : Vec F S512x2048 .f32) (x1 : Vec F S2048x2048 .f32) (x2 : Vec F S1x2048 .f32) (xs0 : Vec F S7x1024x1024 .bf16) :
    out0_B_3 c i arg1 harg1 arg2 harg2 arg3 harg3 arg4 harg4 arg5 harg5 hc0 x0 x1 x2 xs0 = outBlock x0 x2 xs0 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  sl_unfold_words
  simp only [View.readAt_eq_ld, harg1.read_unread, harg3.read_unread, harg5.read_unread]
  rfl

/-- The first point fills the scratch with the seven combinations of the weight block's quadrants. -/
theorem soutA_eq (c : Dev nD) (i : grid0.Coords) (arg1 : Memref sig .tc .vmem S512x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S7x1024x1024 .bf16) (harg5 : arg5.IsWhole) (hc0 : cond0_0 i)
    (x0 : Vec F S512x2048 .f32) (x1 : Vec F S2048x2048 .f32) (x2 : Vec F S1x2048 .f32) :
    sout0_A_0 c i arg1 harg1 arg2 harg2 arg3 harg3 arg4 harg4 arg5 harg5 hc0 x0 x1 x2 = scratchOf x1 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  simp only [View.readAt_eq_ld, harg2.read_unread]
  rfl

/-- The first point: the output block is `outBlock` at the scratch it has just filled. -/
theorem outA_eq (c : Dev nD) (i : grid0.Coords) (arg1 : Memref sig .tc .vmem S512x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S7x1024x1024 .bf16) (harg5 : arg5.IsWhole) (hc0 : cond0_0 i)
    (x0 : Vec F S512x2048 .f32) (x1 : Vec F S2048x2048 .f32) (x2 : Vec F S1x2048 .f32) :
    out0_A_3 c i arg1 harg1 arg2 harg2 arg3 harg3 arg4 harg4 arg5 harg5 hc0 x0 x1 x2 = outBlock x0 x2 (scratchOf x1) := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  simp only [View.readCov_eq_canon', View.readAt_eq_ld, harg1.read_unread, harg2.read_unread, harg3.read_unread]
  rfl

end Cert.KernelIdeal.Pieces

end
-- ==== Proof.LibAttentionDots.lean ====
/-
  Contraction sums of the matrix products of an attention layer, for any sizes, on the extended reals.

  * A rank-2 product whose right operand is contracted on its LAST axis, `[A,K] × [B,K] → [A,B]`: at output index
    (p, q) the sum over k of L (p, k) * R (q, k); with it a matmul into the zero accumulator and a host dot_general.
  * A projection `[B,S,D] × [N,D] → [B,S,N]` (einsum `bsd,nd→bsn`): at (b, s, n) the sum over k of
    L (b, s, k) * R (n, k).
  * The scores `[B,H,Q,D] × [B,H,K,D] → [B,H,Q,K]` with batch axes 0 and 1 (einsum `bhqd,bhkd→bhqk`): at
    (b, h, q, k) the sum over d of L (b, h, q, d) * R (b, h, k, d).
  * The weighted values `[B,H,Q,K] × [B,H,K,D] → [B,H,Q,D]` with batch axes 0 and 1 (einsum `bhqk,bhkd→bhqd`): at
    (b, h, q, d) the sum over k of L (b, h, q, k) * R (b, h, k, d).

  Each takes the dimension numbers as a record with six list hypotheses (closed by `rfl` on a printed record).
-/
import Idealize.ShloMosaic.PureOps.Ideal.Laws
import Idealize.ShloMosaic.Lib.ValueIdx

noncomputable section

open scoped BigOperators

namespace Cert.Lib.AttentionDots

open Idealize.ShloMosaic Idealize.ShloMosaic.ValueIdx

/-! ## Rank 2, the right operand contracted on its last axis -/

theorem trhs_idx {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 q k := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- The contraction sum at (p, q): the sum over k of L (p, k) * R (q, k). -/
theorem trhs_sum {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (L : (⟨2, ![A, K]⟩ : Shape).Idx → EReal) (R : (⟨2, ![B, K]⟩ : Shape).Idx → EReal) (p : Fin A) (q : Fin B) :
    ∑ κ : d.contr.Idx, L (d.lhsIdx (ix2 p q) κ) * R (d.rhsIdx (ix2 p q) κ) = ∑ k : Fin K, L (ix2 p k) * R (ix2 q k) := by
  obtain ⟨hr, hs, h⟩ := trhs_idx d hlc hrc hln hrn hlb hrb
  rw [← Equiv.sum_comp (contrEquiv1 d K hr hs).symm]
  exact Finset.sum_congr rfl fun k _ => by rw [(h p q k).1, (h p q k).2]

/-- A matmul of these dimension numbers into the zero accumulator, read at (p, q). -/
theorem matmul_zero_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q)
      = ∑ k : Fin K, lhs (ix2 p k) * rhs (ix2 q k) :=
  (Ideal.matmul_constant_zero_apply d prec lhs rhs (ix2 p q)).trans (trhs_sum d hlc hrc hln hrn hlb hrb lhs rhs p q)

/-- A host dot_general of these dimension numbers, read at (p, q). -/
theorem dotGeneral_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![A, K]⟩ φ₁)
    (rhs : FVec Ideal ⟨2, ![B, K]⟩ φ₂) (p : Fin A) (q : Fin B) :
    FloatOps.dotGeneral d prec sched lhs rhs (ix2 p q) = ∑ k : Fin K, lhs (ix2 p k) * rhs (ix2 q k) :=
  (Ideal.dotGeneral_apply d prec sched lhs rhs (ix2 p q)).trans (trhs_sum d hlc hrc hln hrn hlb hrb lhs rhs p q)

/-! ## The projection `bsd,nd→bsn` -/

theorem proj_idx {B S D N : Nat} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = []) :
    ∃ (hr : d.contr.rank = 1) (hs : d.contr.size ⟨0, by omega⟩ = D), ∀ (b : Fin B) (s : Fin S) (n : Fin N) (k : Fin D),
      d.lhsIdx (ix3 b s n) ((contrEquiv1 d D hr hs).symm k) = ix3 b s k ∧
      d.rhsIdx (ix3 b s n) ((contrEquiv1 d D hr hs).symm k) = ix2 n k := by
  obtain ⟨lc, rc, ln, rn, lb, rb, wf⟩ := d
  simp only at hlc hrc hln hrn hlb hrb
  subst hlc hrc hln hrn hlb hrb
  refine ⟨rfl, rfl, fun b s n k => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl

/-- A host dot_general `bsd,nd→bsn`, read at (b, s, n): the sum over k of L (b, s, k) * R (n, k). -/
theorem dotGeneral_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![B, S, D]⟩ φ₁)
    (rhs : FVec Ideal ⟨2, ![N, D]⟩ φ₂) (b : Fin B) (s : Fin S) (n : Fin N) :
    FloatOps.dotGeneral d prec sched lhs rhs (ix3 b s n) = ∑ k : Fin D, lhs (ix3 b s k) * rhs (ix2 n k) := by
  obtain ⟨hr, hs, h⟩ := proj_idx d hlc hrc hln hrn hlb hrb
  refine (Ideal.dotGeneral_apply d prec sched lhs rhs (ix3 b s n)).trans ?_
  rw [← Equiv.sum_comp (contrEquiv1 d D hr hs).symm]
  exact Finset.sum_congr rfl fun k _ => by rw [(h b s n k).1, (h b s n k).2]

/-! ## The scores `bhqd,bhkd→bhqk` -/

theorem scores_idx {B H Q K D : Nat} (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1]) :
    ∃ (hr : d.contr.rank = 1) (hs : d.contr.size ⟨0, by omega⟩ = D),
      ∀ (b : Fin B) (h : Fin H) (q : Fin Q) (k : Fin K) (e : Fin D),
      d.lhsIdx (ix4 b h q k) ((contrEquiv1 d D hr hs).symm e) = ix4 b h q e ∧
      d.rhsIdx (ix4 b h q k) ((contrEquiv1 d D hr hs).symm e) = ix4 b h k e := by
  obtain ⟨lc, rc, ln, rn, lb, rb, wf⟩ := d
  simp only at hlc hrc hln hrn hlb hrb
  subst hlc hrc hln hrn hlb hrb
  refine ⟨rfl, rfl, fun b h q k e => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqd,bhkd→bhqk`, read at (b, h, q, k): the sum over e of L (b, h, q, e) * R (b, h, k, e). -/
theorem dotGeneral_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (sched : HostSchedule) (lhs : FVec Ideal ⟨4, ![B, H, Q, D]⟩ φ₁)
    (rhs : FVec Ideal ⟨4, ![B, H, K, D]⟩ φ₂) (b : Fin B) (h : Fin H) (q : Fin Q) (k : Fin K) :
    FloatOps.dotGeneral d prec sched lhs rhs (ix4 b h q k) = ∑ e : Fin D, lhs (ix4 b h q e) * rhs (ix4 b h k e) := by
  obtain ⟨hr, hs, hx⟩ := scores_idx d hlc hrc hln hrn hlb hrb
  refine (Ideal.dotGeneral_apply d prec sched lhs rhs (ix4 b h q k)).trans ?_
  rw [← Equiv.sum_comp (contrEquiv1 d D hr hs).symm]
  exact Finset.sum_congr rfl fun e _ => by rw [(hx b h q k e).1, (hx b h q k e).2]

/-! ## The weighted values `bhqk,bhkd→bhqd` -/

theorem values_idx {B H Q K D : Nat} (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1]) :
    ∃ (hr : d.contr.rank = 1) (hs : d.contr.size ⟨0, by omega⟩ = K),
      ∀ (b : Fin B) (h : Fin H) (q : Fin Q) (e : Fin D) (k : Fin K),
      d.lhsIdx (ix4 b h q e) ((contrEquiv1 d K hr hs).symm k) = ix4 b h q k ∧
      d.rhsIdx (ix4 b h q e) ((contrEquiv1 d K hr hs).symm k) = ix4 b h k e := by
  obtain ⟨lc, rc, ln, rn, lb, rb, wf⟩ := d
  simp only at hlc hrc hln hrn hlb hrb
  subst hlc hrc hln hrn hlb hrb
  refine ⟨rfl, rfl, fun b h q e k => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqk,bhkd→bhqd`, read at (b, h, q, e): the sum over k of L (b, h, q, k) * R (b, h, k, e). -/
theorem dotGeneral_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (sched : HostSchedule) (lhs : FVec Ideal ⟨4, ![B, H, Q, K]⟩ φ₁)
    (rhs : FVec Ideal ⟨4, ![B, H, K, D]⟩ φ₂) (b : Fin B) (h : Fin H) (q : Fin Q) (e : Fin D) :
    FloatOps.dotGeneral d prec sched lhs rhs (ix4 b h q e) = ∑ k : Fin K, lhs (ix4 b h q k) * rhs (ix4 b h k e) := by
  obtain ⟨hr, hs, hx⟩ := values_idx d hlc hrc hln hrn hlb hrb
  refine (Ideal.dotGeneral_apply d prec sched lhs rhs (ix4 b h q e)).trans ?_
  rw [← Equiv.sum_comp (contrEquiv1 d K hr hs).symm]
  exact Finset.sum_congr rfl fun k _ => by rw [(hx b h q e k).1, (hx b h q e k).2]

/-! ## The same, spelled as programs print them (`matmul`, `Host.dotGeneral`): the forms a rewrite finds -/

theorem matmul_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    matmul d prec lhs rhs (constant ⟨2, ![A, B]⟩ .f32 0x00000000#32) (ix2 p q) = ∑ k : Fin K, lhs (ix2 p k) * rhs (ix2 q k) :=
  matmul_zero_trhs d hlc hrc hln hrn hlb hrb prec lhs rhs p q

theorem hostDot_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    Host.dotGeneral d prec lhs rhs (ix2 p q) = ∑ k : Fin K, lhs (ix2 p k) * rhs (ix2 q k) :=
  dotGeneral_trhs d hlc hrc hln hrn hlb hrb prec .single lhs rhs p q

theorem hostDot_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (lhs : FVec Ideal ⟨3, ![B, S, D]⟩ φ₁) (rhs : FVec Ideal ⟨2, ![N, D]⟩ φ₂)
    (b : Fin B) (s : Fin S) (n : Fin N) :
    Host.dotGeneral d prec lhs rhs (ix3 b s n) = ∑ k : Fin D, lhs (ix3 b s k) * rhs (ix2 n k) :=
  dotGeneral_proj d hlc hrc hln hrn hlb hrb prec .single lhs rhs b s n

theorem hostDot_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (lhs : FVec Ideal ⟨4, ![B, H, Q, D]⟩ φ₁) (rhs : FVec Ideal ⟨4, ![B, H, K, D]⟩ φ₂)
    (b : Fin B) (h : Fin H) (q : Fin Q) (k : Fin K) :
    Host.dotGeneral d prec lhs rhs (ix4 b h q k) = ∑ e : Fin D, lhs (ix4 b h q e) * rhs (ix4 b h k e) :=
  dotGeneral_scores d hlc hrc hln hrn hlb hrb prec .single lhs rhs b h q k

theorem hostDot_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (lhs : FVec Ideal ⟨4, ![B, H, Q, K]⟩ φ₁) (rhs : FVec Ideal ⟨4, ![B, H, K, D]⟩ φ₂)
    (b : Fin B) (h : Fin H) (q : Fin Q) (e : Fin D) :
    Host.dotGeneral d prec lhs rhs (ix4 b h q e) = ∑ k : Fin K, lhs (ix4 b h q k) * rhs (ix4 b h k e) :=
  dotGeneral_values d hlc hrc hln hrn hlb hrb prec .single lhs rhs b h q e

end Cert.Lib.AttentionDots

end
-- ==== Proof.LibRank3Layout.lean ====
/-
  Rank-3 layout operations read at an index given by its three coordinates, for any sizes.

  A matrix [a, b] viewed as [a, b, 1] (a trailing unit axis added) reads, at (p, q, 0), the matrix at (p, q); a matrix
  [b, c] viewed as [1, b, c] (a leading unit axis added) reads, at (0, q, r), the matrix at (q, r).  An array [a, b, 1]
  broadcast along its last axis to [a, b, c] reads, at (p, q, r), the array at (p, q, 0); an array [1, b, c] broadcast
  along its first axis to [a, b, c] reads, at (p, q, r), the array at (0, q, r).  And over the extended reals the sum of an
  [a, b, c] array along its last axis, started from the zero word, is at (p, q) the finite sum over r of the entries
  (p, q, r).  Each is one instance of the library's read-at-an-index lemma for the operation, with the coordinate
  arithmetic discharged once for all sizes.
-/
import Idealize.ShloMosaic.Lib.ValueIdx
import Idealize.ShloMosaic.Lib.Pipeline.Value
import Idealize.ShloMosaic.PureOps.Ideal.Laws

noncomputable section

open scoped BigOperators

namespace Idealize.ShloMosaic.Rank3

open Idealize.ShloMosaic Idealize.ShloMosaic.ValueIdx

variable {α : Type}

/-- A trailing unit axis added to a matrix: entry (p, q, 0) of the view is entry (p, q). -/
theorem castAddLast_apply {a b : Nat} (v : (⟨2, ![a, b]⟩ : Shape).Idx → α)
    (h : (⟨2, ![a, b]⟩ : Shape).ShapeCasts ⟨3, ![a, b, 1]⟩) (p : Fin a) (q : Fin b) (z : Fin 1) :
    shapeCast (⟨3, ![a, b, 1]⟩ : Shape) v h (ix3 p q z) = v (ix2 p q) := by
  refine shapeCast_apply v h (ix3 p q z) (ix2 p q) ?_
  rw [Shape.rowMajor_val_two, Shape.rowMajor_val_three]
  show p.val * b + q.val = (p.val * b + q.val) * 1 + z.val
  have := z.isLt
  omega

/-- A leading unit axis added to a matrix: entry (0, q, r) of the view is entry (q, r). -/
theorem castAddFirst_apply {b c : Nat} (v : (⟨2, ![b, c]⟩ : Shape).Idx → α)
    (h : (⟨2, ![b, c]⟩ : Shape).ShapeCasts ⟨3, ![1, b, c]⟩) (z : Fin 1) (q : Fin b) (r : Fin c) :
    shapeCast (⟨3, ![1, b, c]⟩ : Shape) v h (ix3 z q r) = v (ix2 q r) := by
  refine shapeCast_apply v h (ix3 z q r) (ix2 q r) ?_
  rw [Shape.rowMajor_val_two, Shape.rowMajor_val_three]
  show q.val * c + r.val = (z.val * b + q.val) * c + r.val
  have hz : z.val = 0 := by have := z.isLt; omega
  rw [hz, Nat.zero_mul, Nat.zero_add]

/-- A broadcast along the last axis: entry (p, q, r) is the operand's entry (p, q, 0). -/
theorem bcastLast_apply {a b c : Nat} (v : (⟨3, ![a, b, 1]⟩ : Shape).Idx → α)
    (h : (⟨3, ![a, b, 1]⟩ : Shape).Broadcasts ⟨3, ![a, b, c]⟩) (p : Fin a) (q : Fin b) (r : Fin c) :
    broadcastTo (⟨3, ![a, b, c]⟩ : Shape) v h (ix3 p q r) = v (ix3 p q (0 : Fin 1)) :=
  broadcastTo_apply v h (ix3 p q r) (ix3 p q (0 : Fin 1)) (fun d => match d with
    | ⟨0, _⟩ => by
        show p.val = if a = 1 then 0 else p.val
        by_cases ha : a = 1
        · rw [if_pos ha]; have := p.isLt; omega
        · rw [if_neg ha]
    | ⟨1, _⟩ => by
        show q.val = if b = 1 then 0 else q.val
        by_cases hb : b = 1
        · rw [if_pos hb]; have := q.isLt; omega
        · rw [if_neg hb]
    | ⟨2, _⟩ => by show 0 = if (1 : Nat) = 1 then 0 else r.val; rw [if_pos rfl])

/-- A broadcast along the first axis: entry (p, q, r) is the operand's entry (0, q, r). -/
theorem bcastFirst_apply {a b c : Nat} (v : (⟨3, ![1, b, c]⟩ : Shape).Idx → α)
    (h : (⟨3, ![1, b, c]⟩ : Shape).Broadcasts ⟨3, ![a, b, c]⟩) (p : Fin a) (q : Fin b) (r : Fin c) :
    broadcastTo (⟨3, ![a, b, c]⟩ : Shape) v h (ix3 p q r) = v (ix3 (0 : Fin 1) q r) :=
  broadcastTo_apply v h (ix3 p q r) (ix3 (0 : Fin 1) q r) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb]
    | ⟨2, _⟩ => by
        show r.val = if c = 1 then 0 else r.val
        by_cases hc : c = 1
        · rw [if_pos hc]; have := r.isLt; omega
        · rw [if_neg hc])

/-- Over the extended reals, the sum along the last axis started from the zero word: entry (p, q) is the finite sum
    over r of the entries (p, q, r). -/
theorem sumLast_apply {a b c : Nat} (v : FVec Ideal (⟨3, ![a, b, c]⟩ : Shape) .f32)
    (h : (⟨3, ![a, b, c]⟩ : Shape).Reduces [(2 : Fin 3)] ⟨2, ![a, b]⟩) (hφ : FKind.Formats .f32)
    (hacc : (0x00000000#32 : BitVec 32) = FKind.add.neutral .f32 hφ) (p : Fin a) (q : Fin b) :
    multiReduction (F := Ideal) .add [(2 : Fin 3)] (⟨2, ![a, b]⟩ : Shape) v 0x00000000#32 h hφ hacc (ix2 p q)
      = ∑ r : Fin c, v (ix3 p q r) := by
  refine (Ideal.multiReduction_add_single v 0x00000000#32 h hφ hacc (ix2 p q)).trans ?_
  show ∑ r : Fin c, v (h.lift (ix2 p q) r) = ∑ r : Fin c, v (ix3 p q r)
  refine Finset.sum_congr rfl fun r _ => congrArg v (funext fun d => Fin.ext ?_)
  match d with
  | ⟨0, _⟩ => rfl
  | ⟨1, _⟩ => rfl
  | ⟨2, _⟩ => rfl

end Idealize.ShloMosaic.Rank3

end
-- ==== Proof.LibPieceRead.lean ====
/-
  Reading a buffer that a body filled piece by piece, at an index.

  The contents a list of rectangle stores leaves is, at each index, the payload of the first store of the list whose
  rectangle holds the index. An index that has, on some axis, a coordinate BELOW a rectangle's first coordinate on that
  axis is outside the rectangle (`not_mem_of_lt_off`), so that store is skipped (`canon_cons_of_lt_off`): with the
  library's `View.canon_cons_emb` for the store that does hold the index, a buffer filled by tiles in decreasing order
  of offset is read tile by tile with no case analysis on membership. Also: dropping the leading unit axis of a
  `[1, b, c]` array read at `(q, r)`, the inverse of adding it.
-/
import Idealize.ShloMosaic.Lib.Pipeline.Value
import Idealize.ShloMosaic.Lib.ValueIdx

noncomputable section

namespace Idealize.ShloMosaic.PieceRead

open Idealize.ShloMosaic Idealize.ShloMosaic.ValueIdx

/-- An index with a coordinate below a rectangle's first coordinate on that axis is outside the rectangle (any strides). -/
theorem not_mem_of_lt_off {s : Shape} (r : LoadRect s) {y : s.Idx} (a : Fin s.rank) (h : (y a).val < r.off a) : y ∉ r.set := by
  rw [LoadRect.mem_set]
  intro hm
  obtain ⟨j, -, e⟩ := hm a
  omega

/-- A store whose rectangle starts, on some axis, above the index's coordinate does not touch the index: the contents
    there are what the earlier stores left. -/
theorem canon_cons_of_lt_off {Val : EltTy → Type} [∀ e, Nonempty (Val e)] {s : Shape} {e : EltTy}
    (p : View.Piece Val s e) (L : List (View.Piece Val s e)) {y : s.Idx} (a : Fin s.rank) (h : (y a).val < p.1.off a) :
    View.canon (p :: L) y = View.canon L y :=
  View.canon_cons_of_not_mem p L (not_mem_of_lt_off _ a h)

/-- Dropping the leading unit axis of a `[1, b, c]` array: entry `(q, r)` is entry `(0, q, r)`. -/
theorem castDropFirst_apply {α : Type} {b c : Nat} (v : (⟨3, ![1, b, c]⟩ : Shape).Idx → α)
    (h : (⟨3, ![1, b, c]⟩ : Shape).ShapeCasts ⟨2, ![b, c]⟩) (q : Fin b) (r : Fin c) :
    shapeCast (⟨2, ![b, c]⟩ : Shape) v h (ix2 q r) = v (ix3 (0 : Fin 1) q r) := by
  refine shapeCast_apply v h (ix2 q r) (ix3 (0 : Fin 1) q r) ?_
  rw [Shape.rowMajor_val_two, Shape.rowMajor_val_three]
  show ((0 : Fin 1).val * b + q.val) * c + r.val = q.val * c + r.val
  simp

end Idealize.ShloMosaic.PieceRead

end
-- ==== Proof.PayloadRead.lean ====
/-
  The quadrant values and the scratch planes read at an index, on the extended reals.

  Entry `(p, q)` of an output quadrant is the kernel's combination of Strassen's half-size products, each product a
  sum over the 1024 positions of a half contraction: a row of a sum or difference of input quadrants against row `q`
  of a scratch plane (every product contracts the LAST axis of both operands, the planes being stored `[out, in]`).
  Entry `(q, k)` of scratch plane `s` is the `s`-th sum or difference of weight quadrants at `(q, k)`. Rows and columns
  of a quadrant sit in the block at an offset of 0 or 256 (rows) and 0 or 1024 (columns).
-/
import proofs.«164071_g50525995270225_cont_8to1_c_264_21_alg».proof.Proof.KernelPieces
import proofs.«164071_g50525995270225_cont_8to1_c_264_21_alg».proof.Proof.LibAttentionDots
import proofs.«164071_g50525995270225_cont_8to1_c_264_21_alg».proof.Proof.LibRank3Layout
import proofs.«164071_g50525995270225_cont_8to1_c_264_21_alg».proof.Proof.LibPieceRead
import Idealize.ShloMosaic.Lib.ValueLayout
import Idealize.ShloMosaic.Lib.ValueIdx
import Idealize.ShloMosaic.Lib.Pipeline.Value

set_option maxRecDepth 16384

noncomputable section

open scoped BigOperators

namespace Cert.KernelIdeal.Pieces

open Idealize.ShloMosaic Idealize.ShloMosaic.TcCoe Idealize.SL.Sem Idealize.ShloMosaic.ValueIdx Idealize.ShloMosaic.PieceRead
open Cert.KernelIdeal Cert.KernelIdeal.Gen

/-! ## Positions of a quadrant's rows and columns in the block -/

/-- Row `p` of an upper quadrant is row `p` of the block; of a lower quadrant, row `256 + p`. -/
def rowLo (p : Fin 256) : Fin 512 := ⟨p.val, by omega⟩
def rowHi (p : Fin 256) : Fin 512 := ⟨256 + p.val, by omega⟩
/-- Position `k` of a left (lower-index) half is position `k` of the whole axis; of a right half, `1024 + k`. -/
def colLo (k : Fin 1024) : Fin 2048 := ⟨k.val, by omega⟩
def colHi (k : Fin 1024) : Fin 2048 := ⟨1024 + k.val, by omega⟩

theorem idxX00 (p : Fin 256) (k : Fin 1024) : rX00.idx (ix2 p k) = ix2 (rowLo p) (colLo k) :=
  funext fun a => Fin.ext (by match a with
    | ⟨0, _⟩ => show 0 + 1 * p.val = p.val; omega
    | ⟨1, _⟩ => show 0 + 1 * k.val = k.val; omega)
theorem idxX01 (p : Fin 256) (k : Fin 1024) : rX01.idx (ix2 p k) = ix2 (rowLo p) (colHi k) :=
  funext fun a => Fin.ext (by match a with
    | ⟨0, _⟩ => show 0 + 1 * p.val = p.val; omega
    | ⟨1, _⟩ => show 1024 + 1 * k.val = 1024 + k.val; omega)
theorem idxX10 (p : Fin 256) (k : Fin 1024) : rX10.idx (ix2 p k) = ix2 (rowHi p) (colLo k) :=
  funext fun a => Fin.ext (by match a with
    | ⟨0, _⟩ => show 256 + 1 * p.val = 256 + p.val; omega
    | ⟨1, _⟩ => show 0 + 1 * k.val = k.val; omega)
theorem idxX11 (p : Fin 256) (k : Fin 1024) : rX11.idx (ix2 p k) = ix2 (rowHi p) (colHi k) :=
  funext fun a => Fin.ext (by match a with
    | ⟨0, _⟩ => show 256 + 1 * p.val = 256 + p.val; omega
    | ⟨1, _⟩ => show 1024 + 1 * k.val = 1024 + k.val; omega)
theorem idxB0 (q : Fin 1024) : rB0.idx (ix2 (0 : Fin 1) q) = ix2 (0 : Fin 1) (colLo q) :=
  funext fun a => Fin.ext (by match a with
    | ⟨0, _⟩ => rfl
    | ⟨1, _⟩ => show 0 + 1 * q.val = q.val; omega)
theorem idxB1 (q : Fin 1024) : rB1.idx (ix2 (0 : Fin 1) q) = ix2 (0 : Fin 1) (colHi q) :=
  funext fun a => Fin.ext (by match a with
    | ⟨0, _⟩ => rfl
    | ⟨1, _⟩ => show 1024 + 1 * q.val = 1024 + q.val; omega)
theorem idxW00 (q k : Fin 1024) : rW00.idx (ix2 q k) = ix2 (colLo q) (colLo k) :=
  funext fun a => Fin.ext (by match a with
    | ⟨0, _⟩ => show 0 + 1 * q.val = q.val; omega
    | ⟨1, _⟩ => show 0 + 1 * k.val = k.val; omega)
theorem idxW01 (q k : Fin 1024) : rW01.idx (ix2 q k) = ix2 (colLo q) (colHi k) :=
  funext fun a => Fin.ext (by match a with
    | ⟨0, _⟩ => show 0 + 1 * q.val = q.val; omega
    | ⟨1, _⟩ => show 1024 + 1 * k.val = 1024 + k.val; omega)
theorem idxW10 (q k : Fin 1024) : rW10.idx (ix2 q k) = ix2 (colHi q) (colLo k) :=
  funext fun a => Fin.ext (by match a with
    | ⟨0, _⟩ => show 1024 + 1 * q.val = 1024 + q.val; omega
    | ⟨1, _⟩ => show 0 + 1 * k.val = k.val; omega)
theorem idxW11 (q k : Fin 1024) : rW11.idx (ix2 q k) = ix2 (colHi q) (colHi k) :=
  funext fun a => Fin.ext (by match a with
    | ⟨0, _⟩ => show 1024 + 1 * q.val = 1024 + q.val; omega
    | ⟨1, _⟩ => show 1024 + 1 * k.val = 1024 + k.val; omega)

/-! ## A plane of the scratch as a matrix, and a half-size product -/

/-- One half-size product at `(p, q)`: row `p` of the left operand against row `q` of the scratch plane. -/
theorem prod_apply (A : FVec Ideal S256x1024 .bf16) (B3 : FVec Ideal S1x1024x1024 .bf16) (p : Fin 256) (q : Fin 1024) :
    matmul dot_S256x1024_S1024x1024_S256x1024_1_1_0_0_n_n none A
        (shapeCast S1024x1024 B3 Facts₀.shapeCasts_S1x1024x1024_S1024x1024)
        (constant (F := Ideal) S256x1024 .f32 0x00000000#32) (ix2 p q)
      = ∑ k : Fin 1024, A (ix2 p k) * B3 (ix3 (0 : Fin 1) q k) := by
  refine (Cert.Lib.AttentionDots.matmul_trhs dot_S256x1024_S1024x1024_S256x1024_1_1_0_0_n_n rfl rfl rfl rfl rfl rfl none A
    (shapeCast S1024x1024 B3 Facts₀.shapeCasts_S1x1024x1024_S1024x1024) p q).trans ?_
  exact Finset.sum_congr rfl fun k _ => by rw [castDropFirst_apply]

theorem idxS0 (q k : Fin 1024) : rS0.idx (ix3 (0 : Fin 1) q k) = ix3 (0 : Fin 7) q k :=
  funext fun a => Fin.ext (by match a with
    | ⟨0, _⟩ => rfl
    | ⟨1, _⟩ => show 0 + 1 * q.val = q.val; omega
    | ⟨2, _⟩ => show 0 + 1 * k.val = k.val; omega)
theorem idxS1 (q k : Fin 1024) : rS1.idx (ix3 (0 : Fin 1) q k) = ix3 (1 : Fin 7) q k :=
  funext fun a => Fin.ext (by match a with
    | ⟨0, _⟩ => rfl
    | ⟨1, _⟩ => show 0 + 1 * q.val = q.val; omega
    | ⟨2, _⟩ => show 0 + 1 * k.val = k.val; omega)
theorem idxS2 (q k : Fin 1024) : rS2.idx (ix3 (0 : Fin 1) q k) = ix3 (2 : Fin 7) q k :=
  funext fun a => Fin.ext (by match a with
    | ⟨0, _⟩ => rfl
    | ⟨1, _⟩ => show 0 + 1 * q.val = q.val; omega
    | ⟨2, _⟩ => show 0 + 1 * k.val = k.val; omega)
theorem idxS3 (q k : Fin 1024) : rS3.idx (ix3 (0 : Fin 1) q k) = ix3 (3 : Fin 7) q k :=
  funext fun a => Fin.ext (by match a with
    | ⟨0, _⟩ => rfl
    | ⟨1, _⟩ => show 0 + 1 * q.val = q.val; omega
    | ⟨2, _⟩ => show 0 + 1 * k.val = k.val; omega)
theorem idxS4 (q k : Fin 1024) : rS4.idx (ix3 (0 : Fin 1) q k) = ix3 (4 : Fin 7) q k :=
  funext fun a => Fin.ext (by match a with
    | ⟨0, _⟩ => rfl
    | ⟨1, _⟩ => show 0 + 1 * q.val = q.val; omega
    | ⟨2, _⟩ => show 0 + 1 * k.val = k.val; omega)
theorem idxS5 (q k : Fin 1024) : rS5.idx (ix3 (0 : Fin 1) q k) = ix3 (5 : Fin 7) q k :=
  funext fun a => Fin.ext (by match a with
    | ⟨0, _⟩ => rfl
    | ⟨1, _⟩ => show 0 + 1 * q.val = q.val; omega
    | ⟨2, _⟩ => show 0 + 1 * k.val = k.val; omega)
theorem idxS6 (q k : Fin 1024) : rS6.idx (ix3 (0 : Fin 1) q k) = ix3 (6 : Fin 7) q k :=
  funext fun a => Fin.ext (by match a with
    | ⟨0, _⟩ => rfl
    | ⟨1, _⟩ => show 0 + 1 * q.val = q.val; omega
    | ⟨2, _⟩ => show 0 + 1 * k.val = k.val; omega)

/-- A half of the bias row, broadcast down the 256 rows of a quadrant, at `(p, q)`. -/
theorem bias_apply (v : FVec Ideal S1x1024 .f32) (p : Fin 256) (q : Fin 1024) :
    broadcastTo S256x1024 (shapeCast S1x1024 v Facts₀.shapeCasts_S1x1024_S1x1024) Facts₀.broadcasts_S1x1024_S256x1024 (ix2 p q)
      = v (ix2 (0 : Fin 1) q) := by
  rw [broadcastTo_1b_ab_apply, shapeCast_self]

/-! ## The block read quadrant by quadrant -/

variable {F : FTy → Type} [FloatOps F]

theorem outBlock_hh (x0 : Vec F S512x2048 .f32) (x2 : Vec F S1x2048 .f32) (cs : Vec F S7x1024x1024 .bf16) (p : Fin 256) (q : Fin 1024) :
    outBlock x0 x2 cs (ix2 (rowHi p) (colHi q)) = pay22 x0 x2 cs (ix2 p q) := by
  unfold outBlock
  exact (congrArg _ (idxX11 p q).symm).trans (View.canon_cons_emb rX11 _ _ (ix2 p q))

theorem outBlock_hl (x0 : Vec F S512x2048 .f32) (x2 : Vec F S1x2048 .f32) (cs : Vec F S7x1024x1024 .bf16) (p : Fin 256) (q : Fin 1024) :
    outBlock x0 x2 cs (ix2 (rowHi p) (colLo q)) = pay21 x0 x2 cs (ix2 p q) := by
  unfold outBlock
  refine (View.canon_cons_of_not_mem _ _ ?_).trans ?_
  · exact not_mem_of_lt_off (s := S512x2048) _ ⟨1, by decide⟩ (by show q.val < 1024; exact q.isLt)
  exact (congrArg _ (idxX10 p q).symm).trans (View.canon_cons_emb rX10 _ _ (ix2 p q))

theorem outBlock_lh (x0 : Vec F S512x2048 .f32) (x2 : Vec F S1x2048 .f32) (cs : Vec F S7x1024x1024 .bf16) (p : Fin 256) (q : Fin 1024) :
    outBlock x0 x2 cs (ix2 (rowLo p) (colHi q)) = pay12 x0 x2 cs (ix2 p q) := by
  unfold outBlock
  refine (View.canon_cons_of_not_mem _ _ ?_).trans ?_
  · exact not_mem_of_lt_off (s := S512x2048) _ ⟨0, by decide⟩ (by show p.val < 256; exact p.isLt)
  refine (View.canon_cons_of_not_mem _ _ ?_).trans ?_
  · exact not_mem_of_lt_off (s := S512x2048) _ ⟨0, by decide⟩ (by show p.val < 256; exact p.isLt)
  exact (congrArg _ (idxX01 p q).symm).trans (View.canon_cons_emb rX01 _ _ (ix2 p q))

theorem outBlock_ll (x0 : Vec F S512x2048 .f32) (x2 : Vec F S1x2048 .f32) (cs : Vec F S7x1024x1024 .bf16) (p : Fin 256) (q : Fin 1024) :
    outBlock x0 x2 cs (ix2 (rowLo p) (colLo q)) = pay11 x0 x2 cs (ix2 p q) := by
  unfold outBlock
  refine (View.canon_cons_of_not_mem _ _ ?_).trans ?_
  · exact not_mem_of_lt_off (s := S512x2048) _ ⟨0, by decide⟩ (by show p.val < 256; exact p.isLt)
  refine (View.canon_cons_of_not_mem _ _ ?_).trans ?_
  · exact not_mem_of_lt_off (s := S512x2048) _ ⟨0, by decide⟩ (by show p.val < 256; exact p.isLt)
  refine (View.canon_cons_of_not_mem _ _ ?_).trans ?_
  · exact not_mem_of_lt_off (s := S512x2048) _ ⟨1, by decide⟩ (by show q.val < 1024; exact q.isLt)
  exact (congrArg _ (idxX00 p q).symm).trans (View.canon_cons_emb rX00 _ _ (ix2 p q))

/-! ## The scratch planes after the fill -/

/-- Plane 0 of the filled scratch at `(q, k)`. -/
theorem scratchOf_plane0 (x1 : Vec Ideal S2048x2048 .f32) (q k : Fin 1024) :
    scratchOf (F := Ideal) x1 (ix3 (0 : Fin 7) q k) = x1 (ix2 (colLo q) (colLo k)) + x1 (ix2 (colHi q) (colHi k)) := by
  unfold scratchOf
  refine (View.canon_cons_of_not_mem _ _ ?_).trans ?_
  · exact not_mem_of_lt_off (s := S7x1024x1024) _ ⟨0, by decide⟩ (by show (0 : ℕ) < 6; decide)
  refine (View.canon_cons_of_not_mem _ _ ?_).trans ?_
  · exact not_mem_of_lt_off (s := S7x1024x1024) _ ⟨0, by decide⟩ (by show (0 : ℕ) < 5; decide)
  refine (View.canon_cons_of_not_mem _ _ ?_).trans ?_
  · exact not_mem_of_lt_off (s := S7x1024x1024) _ ⟨0, by decide⟩ (by show (0 : ℕ) < 4; decide)
  refine (View.canon_cons_of_not_mem _ _ ?_).trans ?_
  · exact not_mem_of_lt_off (s := S7x1024x1024) _ ⟨0, by decide⟩ (by show (0 : ℕ) < 3; decide)
  refine (View.canon_cons_of_not_mem _ _ ?_).trans ?_
  · exact not_mem_of_lt_off (s := S7x1024x1024) _ ⟨0, by decide⟩ (by show (0 : ℕ) < 2; decide)
  refine (View.canon_cons_of_not_mem _ _ ?_).trans ?_
  · exact not_mem_of_lt_off (s := S7x1024x1024) _ ⟨0, by decide⟩ (by show (0 : ℕ) < 1; decide)
  refine ((congrArg _ (idxS0 q k).symm).trans (View.canon_cons_emb rS0 _ _ (ix3 (0 : Fin 1) q k))).trans ?_
  unfold k0_pay7
  rw [Idealize.ShloMosaic.Rank3.castAddFirst_apply]
  simp only [addf_apply, subf_apply, truncf_apply, View.ld, idxW00, idxW11]

/-- Plane 1 of the filled scratch at `(q, k)`. -/
theorem scratchOf_plane1 (x1 : Vec Ideal S2048x2048 .f32) (q k : Fin 1024) :
    scratchOf (F := Ideal) x1 (ix3 (1 : Fin 7) q k) = x1 (ix2 (colLo q) (colLo k)) := by
  unfold scratchOf
  refine (View.canon_cons_of_not_mem _ _ ?_).trans ?_
  · exact not_mem_of_lt_off (s := S7x1024x1024) _ ⟨0, by decide⟩ (by show (1 : ℕ) < 6; decide)
  refine (View.canon_cons_of_not_mem _ _ ?_).trans ?_
  · exact not_mem_of_lt_off (s := S7x1024x1024) _ ⟨0, by decide⟩ (by show (1 : ℕ) < 5; decide)
  refine (View.canon_cons_of_not_mem _ _ ?_).trans ?_
  · exact not_mem_of_lt_off (s := S7x1024x1024) _ ⟨0, by decide⟩ (by show (1 : ℕ) < 4; decide)
  refine (View.canon_cons_of_not_mem _ _ ?_).trans ?_
  · exact not_mem_of_lt_off (s := S7x1024x1024) _ ⟨0, by decide⟩ (by show (1 : ℕ) < 3; decide)
  refine (View.canon_cons_of_not_mem _ _ ?_).trans ?_
  · exact not_mem_of_lt_off (s := S7x1024x1024) _ ⟨0, by decide⟩ (by show (1 : ℕ) < 2; decide)
  refine ((congrArg _ (idxS1 q k).symm).trans (View.canon_cons_emb rS1 _ _ (ix3 (0 : Fin 1) q k))).trans ?_
  unfold k0_pay8
  rw [Idealize.ShloMosaic.Rank3.castAddFirst_apply]
  simp only [addf_apply, subf_apply, truncf_apply, View.ld, idxW00]

/-- Plane 2 of the filled scratch at `(q, k)`. -/
theorem scratchOf_plane2 (x1 : Vec Ideal S2048x2048 .f32) (q k : Fin 1024) :
    scratchOf (F := Ideal) x1 (ix3 (2 : Fin 7) q k) = x1 (ix2 (colHi q) (colLo k)) - x1 (ix2 (colHi q) (colHi k)) := by
  unfold scratchOf
  refine (View.canon_cons_of_not_mem _ _ ?_).trans ?_
  · exact not_mem_of_lt_off (s := S7x1024x1024) _ ⟨0, by decide⟩ (by show (2 : ℕ) < 6; decide)
  refine (View.canon_cons_of_not_mem _ _ ?_).trans ?_
  · exact not_mem_of_lt_off (s := S7x1024x1024) _ ⟨0, by decide⟩ (by show (2 : ℕ) < 5; decide)
  refine (View.canon_cons_of_not_mem _ _ ?_).trans ?_
  · exact not_mem_of_lt_off (s := S7x1024x1024) _ ⟨0, by decide⟩ (by show (2 : ℕ) < 4; decide)
  refine (View.canon_cons_of_not_mem _ _ ?_).trans ?_
  · exact not_mem_of_lt_off (s := S7x1024x1024) _ ⟨0, by decide⟩ (by show (2 : ℕ) < 3; decide)
  refine ((congrArg _ (idxS2 q k).symm).trans (View.canon_cons_emb rS2 _ _ (ix3 (0 : Fin 1) q k))).trans ?_
  unfold k0_pay9
  rw [Idealize.ShloMosaic.Rank3.castAddFirst_apply]
  simp only [addf_apply, subf_apply, truncf_apply, View.ld, idxW10, idxW11]

/-- Plane 3 of the filled scratch at `(q, k)`. -/
theorem scratchOf_plane3 (x1 : Vec Ideal S2048x2048 .f32) (q k : Fin 1024) :
    scratchOf (F := Ideal) x1 (ix3 (3 : Fin 7) q k) = x1 (ix2 (colLo q) (colHi k)) - x1 (ix2 (colLo q) (colLo k)) := by
  unfold scratchOf
  refine (View.canon_cons_of_not_mem _ _ ?_).trans ?_
  · exact not_mem_of_lt_off (s := S7x1024x1024) _ ⟨0, by decide⟩ (by show (3 : ℕ) < 6; decide)
  refine (View.canon_cons_of_not_mem _ _ ?_).trans ?_
  · exact not_mem_of_lt_off (s := S7x1024x1024) _ ⟨0, by decide⟩ (by show (3 : ℕ) < 5; decide)
  refine (View.canon_cons_of_not_mem _ _ ?_).trans ?_
  · exact not_mem_of_lt_off (s := S7x1024x1024) _ ⟨0, by decide⟩ (by show (3 : ℕ) < 4; decide)
  refine ((congrArg _ (idxS3 q k).symm).trans (View.canon_cons_emb rS3 _ _ (ix3 (0 : Fin 1) q k))).trans ?_
  unfold k0_pay10
  rw [Idealize.ShloMosaic.Rank3.castAddFirst_apply]
  simp only [addf_apply, subf_apply, truncf_apply, View.ld, idxW00, idxW01]

/-- Plane 4 of the filled scratch at `(q, k)`. -/
theorem scratchOf_plane4 (x1 : Vec Ideal S2048x2048 .f32) (q k : Fin 1024) :
    scratchOf (F := Ideal) x1 (ix3 (4 : Fin 7) q k) = x1 (ix2 (colHi q) (colHi k)) := by
  unfold scratchOf
  refine (View.canon_cons_of_not_mem _ _ ?_).trans ?_
  · exact not_mem_of_lt_off (s := S7x1024x1024) _ ⟨0, by decide⟩ (by show (4 : ℕ) < 6; decide)
  refine (View.canon_cons_of_not_mem _ _ ?_).trans ?_
  · exact not_mem_of_lt_off (s := S7x1024x1024) _ ⟨0, by decide⟩ (by show (4 : ℕ) < 5; decide)
  refine ((congrArg _ (idxS4 q k).symm).trans (View.canon_cons_emb rS4 _ _ (ix3 (0 : Fin 1) q k))).trans ?_
  unfold k0_pay11
  rw [Idealize.ShloMosaic.Rank3.castAddFirst_apply]
  simp only [addf_apply, subf_apply, truncf_apply, View.ld, idxW11]

/-- Plane 5 of the filled scratch at `(q, k)`. -/
theorem scratchOf_plane5 (x1 : Vec Ideal S2048x2048 .f32) (q k : Fin 1024) :
    scratchOf (F := Ideal) x1 (ix3 (5 : Fin 7) q k) = x1 (ix2 (colLo q) (colLo k)) + x1 (ix2 (colHi q) (colLo k)) := by
  unfold scratchOf
  refine (View.canon_cons_of_not_mem _ _ ?_).trans ?_
  · exact not_mem_of_lt_off (s := S7x1024x1024) _ ⟨0, by decide⟩ (by show (5 : ℕ) < 6; decide)
  refine ((congrArg _ (idxS5 q k).symm).trans (View.canon_cons_emb rS5 _ _ (ix3 (0 : Fin 1) q k))).trans ?_
  unfold k0_pay13 k0_pay12
  rw [Idealize.ShloMosaic.Rank3.castAddFirst_apply]
  simp only [addf_apply, subf_apply, truncf_apply, View.ld, idxW00, idxW10]

/-- Plane 6 of the filled scratch at `(q, k)`. -/
theorem scratchOf_plane6 (x1 : Vec Ideal S2048x2048 .f32) (q k : Fin 1024) :
    scratchOf (F := Ideal) x1 (ix3 (6 : Fin 7) q k) = x1 (ix2 (colLo q) (colHi k)) + x1 (ix2 (colHi q) (colHi k)) := by
  unfold scratchOf
  refine ((congrArg _ (idxS6 q k).symm).trans (View.canon_cons_emb rS6 _ _ (ix3 (0 : Fin 1) q k))).trans ?_
  unfold k0_pay14
  rw [Idealize.ShloMosaic.Rank3.castAddFirst_apply]
  simp only [addf_apply, subf_apply, truncf_apply, View.ld, idxW01, idxW11]

/-! ## The quadrant values at an index -/

/-- Upper-left quadrant at `(p, q)`, as sums over the 1024 positions of a half contraction. -/
theorem pay11_apply (x0 : Vec Ideal S512x2048 .f32) (x2 : Vec Ideal S1x2048 .f32) (cs : Vec Ideal S7x1024x1024 .bf16)
    (p : Fin 256) (q : Fin 1024) :
    pay11 (F := Ideal) x0 x2 cs (ix2 p q)
      = (((((∑ k : Fin 1024, (x0 (ix2 (rowLo p) (colLo k)) + x0 (ix2 (rowHi p) (colHi k))) * cs (ix3 (0 : Fin 7) q k))
        + (∑ k : Fin 1024, x0 (ix2 (rowHi p) (colHi k)) * cs (ix3 (3 : Fin 7) q k)))
        - (∑ k : Fin 1024, (x0 (ix2 (rowLo p) (colLo k)) + x0 (ix2 (rowLo p) (colHi k))) * cs (ix3 (4 : Fin 7) q k)))
        + x2 (ix2 (0 : Fin 1) (colLo q)))
        + (∑ k : Fin 1024, (x0 (ix2 (rowLo p) (colHi k)) - x0 (ix2 (rowHi p) (colHi k))) * cs (ix3 (6 : Fin 7) q k))) := by
  unfold pay11 k0_pay3 k0_pay1 k0_pay2 k0_pay21 k0_pay24 k0_pay15 k0_pay16 k0_pay18 k0_pay19
  simp only [addf_apply, subf_apply, prod_apply, truncf_apply, bias_apply, View.ld, idxX00, idxX01, idxX10, idxX11,
    idxS0, idxS1, idxS2, idxS3, idxS4, idxS5, idxS6, idxB0, idxB1]

/-- Upper-right quadrant at `(p, q)`, as sums over the 1024 positions of a half contraction. -/
theorem pay12_apply (x0 : Vec Ideal S512x2048 .f32) (x2 : Vec Ideal S1x2048 .f32) (cs : Vec Ideal S7x1024x1024 .bf16)
    (p : Fin 256) (q : Fin 1024) :
    pay12 (F := Ideal) x0 x2 cs (ix2 p q)
      = (((∑ k : Fin 1024, x0 (ix2 (rowLo p) (colLo k)) * cs (ix3 (2 : Fin 7) q k))
        + (∑ k : Fin 1024, (x0 (ix2 (rowLo p) (colLo k)) + x0 (ix2 (rowLo p) (colHi k))) * cs (ix3 (4 : Fin 7) q k)))
        + x2 (ix2 (0 : Fin 1) (colHi q))) := by
  unfold pay12 k0_pay4 k0_pay2 k0_pay23 k0_pay15 k0_pay16 k0_pay20
  simp only [addf_apply, subf_apply, prod_apply, truncf_apply, bias_apply, View.ld, idxX00, idxX01, idxX10, idxX11,
    idxS0, idxS1, idxS2, idxS3, idxS4, idxS5, idxS6, idxB0, idxB1]

/-- Lower-left quadrant at `(p, q)`, as sums over the 1024 positions of a half contraction. -/
theorem pay21_apply (x0 : Vec Ideal S512x2048 .f32) (x2 : Vec Ideal S1x2048 .f32) (cs : Vec Ideal S7x1024x1024 .bf16)
    (p : Fin 256) (q : Fin 1024) :
    pay21 (F := Ideal) x0 x2 cs (ix2 p q)
      = (((∑ k : Fin 1024, (x0 (ix2 (rowHi p) (colLo k)) + x0 (ix2 (rowHi p) (colHi k))) * cs (ix3 (1 : Fin 7) q k))
        + (∑ k : Fin 1024, x0 (ix2 (rowHi p) (colHi k)) * cs (ix3 (3 : Fin 7) q k)))
        + x2 (ix2 (0 : Fin 1) (colLo q))) := by
  unfold pay21 k0_pay5 k0_pay1 k0_pay22 k0_pay24 k0_pay17 k0_pay18 k0_pay19
  simp only [addf_apply, subf_apply, prod_apply, truncf_apply, bias_apply, View.ld, idxX00, idxX01, idxX10, idxX11,
    idxS0, idxS1, idxS2, idxS3, idxS4, idxS5, idxS6, idxB0, idxB1]

/-- Lower-right quadrant at `(p, q)`, as sums over the 1024 positions of a half contraction. -/
theorem pay22_apply (x0 : Vec Ideal S512x2048 .f32) (x2 : Vec Ideal S1x2048 .f32) (cs : Vec Ideal S7x1024x1024 .bf16)
    (p : Fin 256) (q : Fin 1024) :
    pay22 (F := Ideal) x0 x2 cs (ix2 p q)
      = (((((∑ k : Fin 1024, (x0 (ix2 (rowLo p) (colLo k)) + x0 (ix2 (rowHi p) (colHi k))) * cs (ix3 (0 : Fin 7) q k))
        - (∑ k : Fin 1024, (x0 (ix2 (rowHi p) (colLo k)) + x0 (ix2 (rowHi p) (colHi k))) * cs (ix3 (1 : Fin 7) q k)))
        + (∑ k : Fin 1024, x0 (ix2 (rowLo p) (colLo k)) * cs (ix3 (2 : Fin 7) q k)))
        + x2 (ix2 (0 : Fin 1) (colHi q)))
        + (∑ k : Fin 1024, (x0 (ix2 (rowHi p) (colLo k)) - x0 (ix2 (rowLo p) (colLo k))) * cs (ix3 (5 : Fin 7) q k))) := by
  unfold pay22 k0_pay6 k0_pay21 k0_pay22 k0_pay23 k0_pay15 k0_pay17 k0_pay18 k0_pay20
  simp only [addf_apply, subf_apply, prod_apply, truncf_apply, bias_apply, View.ld, idxX00, idxX01, idxX10, idxX11,
    idxS0, idxS1, idxS2, idxS3, idxS4, idxS5, idxS6, idxB0, idxB1]

end Cert.KernelIdeal.Pieces

end
-- ==== Proof.LibAggregateLinear.lean ====
/-
  A linear map commutes with a weighted aggregation, on the extended reals.

  Aggregating rows first and applying a matrix afterwards,
      ∑ k, (∑ e ∈ hits, x e k · a e) · w k ,
  is applying the matrix to every row first and aggregating afterwards,
      ∑ e ∈ hits, (∑ k, x e k · w k) · a e ,
  when every `x e k`, `w k` and `a e` is a real number: over ℝ this is distributivity and an exchange of the two finite sums.
  (With an infinite entry the two sides can differ: distributivity fails at `⊤ + ⊥`.)  The selection of the rows that hit is an
  `if` inside the sum, as a scatter-add read at an index leaves it.

  Also here: the coercion ℝ → EReal commutes with finite sums, and the reciprocal square root of a positive extended real is
  a real number (`⊤ ↦ 0`), so that `if 0 < y then rsqrt (max y ε) else 0` is real for every `y` and `ε`.
-/
import Idealize.ShloMosaic.PureOps.Ideal

noncomputable section

open scoped BigOperators

namespace Idealize.ShloMosaic.AggregateLinear

/-- The coercion of a finite real sum is the sum of the coercions. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_isReal {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih fun i hi => hf i (Finset.mem_insert_of_mem hi)
    obtain ⟨q, hq⟩ := hf a (Finset.mem_insert_self a s)
    exact ⟨q + r, by rw [Finset.sum_insert ha, hr, hq, EReal.coe_add]⟩

/-- AGGREGATE THEN MAP = MAP THEN AGGREGATE, when every entry is real. -/
theorem aggregate_map_comm {ι κ : Type*} [Fintype ι] [Fintype κ] (x : ι → κ → EReal) (w : κ → EReal) (a : ι → EReal)
    (p : ι → Prop) [DecidablePred p]
    (hx : ∀ e k, ∃ r : ℝ, x e k = r) (hw : ∀ k, ∃ r : ℝ, w k = r) (ha : ∀ e, ∃ r : ℝ, a e = r) :
    ∑ k, (∑ e, if p e then x e k * a e else 0) * w k = ∑ e, if p e then (∑ k, x e k * w k) * a e else 0 := by
  choose X hX using hx
  choose W hW using hw
  choose A hA using ha
  have hl : ∀ k, (∑ e, if p e then x e k * a e else 0) * w k
      = (((∑ e, if p e then X e k * A e else 0) * W k : ℝ) : EReal) := by
    intro k
    rw [EReal.coe_mul, coe_finset_sum, hW]
    refine congrArg (· * (W k : EReal)) (Finset.sum_congr rfl fun e _ => ?_)
    by_cases h : p e
    · rw [if_pos h, if_pos h, hX, hA, EReal.coe_mul]
    · rw [if_neg h, if_neg h, EReal.coe_zero]
  have hr : ∀ e, (if p e then (∑ k, x e k * w k) * a e else 0)
      = (((if p e then (∑ k, X e k * W k) * A e else 0 : ℝ)) : EReal) := by
    intro e
    by_cases h : p e
    · rw [if_pos h, if_pos h, EReal.coe_mul, coe_finset_sum, hA]
      refine congrArg (· * (A e : EReal)) (Finset.sum_congr rfl fun k _ => ?_)
      rw [hX, hW, EReal.coe_mul]
    · rw [if_neg h, if_neg h, EReal.coe_zero]
  simp only [hl, hr, ← coe_finset_sum]
  refine congrArg (fun r : ℝ => (r : EReal)) ?_
  simp only [Finset.sum_mul]
  rw [Finset.sum_comm]
  refine Finset.sum_congr rfl fun e _ => ?_
  by_cases h : p e
  · simp only [if_pos h]
    refine Finset.sum_congr rfl fun k _ => ?_
    ring
  · simp only [if_neg h, zero_mul, Finset.sum_const_zero]

/-- The reciprocal square root of a positive extended real is a real number (`⊤ ↦ 0`). -/
theorem rsqrt_isReal_of_pos (y : EReal) (h : 0 < y) : ∃ r : ℝ, Ideal.rsqrt y = r := by
  induction y using EReal.rec with
  | bot => exact absurd h (not_lt.mpr bot_le)
  | top => exact ⟨0, by rw [Ideal.rsqrt_top, EReal.coe_zero]⟩
  | coe r =>
    have hr : 0 < r := EReal.coe_pos.mp h
    refine ⟨(Real.sqrt r)⁻¹, ?_⟩
    rw [Ideal.rsqrt_coe, if_neg (not_lt.mpr hr.le), if_neg hr.ne']

end Idealize.ShloMosaic.AggregateLinear

end
-- ==== Proof.LibStrassenStep.lean ====
/-
  Strassen's one-level identities for a single output entry, on the extended reals, for REAL data.

  Split the contraction index into two halves. With `a11, a12` the two half-rows of one input row, `a21, a22` the two
  half-rows of the row 256 below it, and `w00, w01, w10, w11` the four half-rows of weight rows `q` and `q + 1024`
  (`w01` = row `q`, upper half of the contraction index, and so on), the seven products are

      M1 = ∑ (a11 + a22)(w00 + w11)   M2 = ∑ (a21 + a22) w00     M3 = ∑ a11 (w10 - w11)   M4 = ∑ a22 (w01 - w00)
      M5 = ∑ (a11 + a12) w11          M6 = ∑ (a21 - a11)(w00 + w10)   M7 = ∑ (a12 - a22)(w01 + w11)

  and the four output quadrants are  M1 + M4 - M5 + M7,  M3 + M5,  M2 + M4,  M1 - M2 + M3 + M6  — each equal, term by
  term in the contraction index, to the plain sum of two half-contractions. The identities use distributivity and
  cancellation, which fail at infinities: they are stated for entries that are real numbers, the coercion pushed out
  of the sums first, and hold with the bias added in the position the kernel adds it.
-/
import Idealize.ShloMosaic.PureOps.Ideal
import proofs.«164071_g50525995270225_cont_8to1_c_264_21_alg».proof.Proof.LibAggregateLinear

noncomputable section

open scoped BigOperators

namespace Cert.Strassen.Algebra

open Idealize.ShloMosaic.AggregateLinear

variable {ι : Type*} [Fintype ι]

/-- A sum of coerced reals is the coerced real sum. -/
theorem sum_coe (f : ι → ℝ) : (∑ k, ((f k : ℝ) : EReal)) = ((∑ k, f k : ℝ) : EReal) :=
  (coe_finset_sum Finset.univ f).symm

/-- Upper-left quadrant: `((M1 + M4) - M5 + b) + M7 = (∑ a11 w00 + ∑ a12 w01) + b`. -/
theorem quad11 (a11 a12 a22 w00 w01 w11 : ι → ℝ) (b : ℝ) :
    ((((∑ k, ((a11 k : EReal) + (a22 k : EReal)) * ((w00 k : EReal) + (w11 k : EReal)))
        + (∑ k, (a22 k : EReal) * ((w01 k : EReal) - (w00 k : EReal))))
        - (∑ k, ((a11 k : EReal) + (a12 k : EReal)) * (w11 k : EReal)))
        + (b : EReal))
        + (∑ k, ((a12 k : EReal) - (a22 k : EReal)) * ((w01 k : EReal) + (w11 k : EReal)))
      = ((∑ k, (a11 k : EReal) * (w00 k : EReal)) + (∑ k, (a12 k : EReal) * (w01 k : EReal))) + (b : EReal) := by
  simp only [← EReal.coe_add, ← EReal.coe_sub, ← EReal.coe_mul, sum_coe]
  refine congrArg _ ?_
  have h : (∑ k, (a11 k + a22 k) * (w00 k + w11 k)) + (∑ k, a22 k * (w01 k - w00 k))
      - (∑ k, (a11 k + a12 k) * w11 k) + (∑ k, (a12 k - a22 k) * (w01 k + w11 k))
      = (∑ k, a11 k * w00 k) + (∑ k, a12 k * w01 k) := by
    rw [← Finset.sum_add_distrib, ← Finset.sum_sub_distrib, ← Finset.sum_add_distrib, ← Finset.sum_add_distrib]
    exact Finset.sum_congr rfl fun k _ => by ring
  linarith

/-- Upper-right quadrant: `(M3 + M5) + b = (∑ a11 w10 + ∑ a12 w11) + b`. -/
theorem quad12 (a11 a12 w10 w11 : ι → ℝ) (b : ℝ) :
    ((∑ k, (a11 k : EReal) * ((w10 k : EReal) - (w11 k : EReal)))
        + (∑ k, ((a11 k : EReal) + (a12 k : EReal)) * (w11 k : EReal)))
        + (b : EReal)
      = ((∑ k, (a11 k : EReal) * (w10 k : EReal)) + (∑ k, (a12 k : EReal) * (w11 k : EReal))) + (b : EReal) := by
  simp only [← EReal.coe_add, ← EReal.coe_sub, ← EReal.coe_mul, sum_coe]
  refine congrArg _ ?_
  have h : (∑ k, a11 k * (w10 k - w11 k)) + (∑ k, (a11 k + a12 k) * w11 k)
      = (∑ k, a11 k * w10 k) + (∑ k, a12 k * w11 k) := by
    rw [← Finset.sum_add_distrib, ← Finset.sum_add_distrib]
    exact Finset.sum_congr rfl fun k _ => by ring
  linarith

/-- Lower-left quadrant: `(M2 + M4) + b = (∑ a21 w00 + ∑ a22 w01) + b`. -/
theorem quad21 (a21 a22 w00 w01 : ι → ℝ) (b : ℝ) :
    ((∑ k, ((a21 k : EReal) + (a22 k : EReal)) * (w00 k : EReal))
        + (∑ k, (a22 k : EReal) * ((w01 k : EReal) - (w00 k : EReal))))
        + (b : EReal)
      = ((∑ k, (a21 k : EReal) * (w00 k : EReal)) + (∑ k, (a22 k : EReal) * (w01 k : EReal))) + (b : EReal) := by
  simp only [← EReal.coe_add, ← EReal.coe_sub, ← EReal.coe_mul, sum_coe]
  refine congrArg _ ?_
  have h : (∑ k, (a21 k + a22 k) * w00 k) + (∑ k, a22 k * (w01 k - w00 k))
      = (∑ k, a21 k * w00 k) + (∑ k, a22 k * w01 k) := by
    rw [← Finset.sum_add_distrib, ← Finset.sum_add_distrib]
    exact Finset.sum_congr rfl fun k _ => by ring
  linarith

/-- Lower-right quadrant: `((M1 - M2) + M3 + b) + M6 = (∑ a21 w10 + ∑ a22 w11) + b`. -/
theorem quad22 (a11 a21 a22 w00 w10 w11 : ι → ℝ) (b : ℝ) :
    ((((∑ k, ((a11 k : EReal) + (a22 k : EReal)) * ((w00 k : EReal) + (w11 k : EReal)))
        - (∑ k, ((a21 k : EReal) + (a22 k : EReal)) * (w00 k : EReal)))
        + (∑ k, (a11 k : EReal) * ((w10 k : EReal) - (w11 k : EReal))))
        + (b : EReal))
        + (∑ k, ((a21 k : EReal) - (a11 k : EReal)) * ((w00 k : EReal) + (w10 k : EReal)))
      = ((∑ k, (a21 k : EReal) * (w10 k : EReal)) + (∑ k, (a22 k : EReal) * (w11 k : EReal))) + (b : EReal) := by
  simp only [← EReal.coe_add, ← EReal.coe_sub, ← EReal.coe_mul, sum_coe]
  refine congrArg _ ?_
  have h : (∑ k, (a11 k + a22 k) * (w00 k + w11 k)) - (∑ k, (a21 k + a22 k) * w00 k)
      + (∑ k, a11 k * (w10 k - w11 k)) + (∑ k, (a21 k - a11 k) * (w00 k + w10 k))
      = (∑ k, a21 k * w10 k) + (∑ k, a22 k * w11 k) := by
    rw [← Finset.sum_sub_distrib, ← Finset.sum_add_distrib, ← Finset.sum_add_distrib, ← Finset.sum_add_distrib]
    exact Finset.sum_congr rfl fun k _ => by ring
  linarith

end Cert.Strassen.Algebra

end
-- ==== Proof.LibSideBySide.lean ====
/-
  Layout and clamp lemmas for any sizes.  Two matrices with the same rows laid side by side, read at a column of
  the first or of the second; a sum over a + b positions split into the first a and the last b; a one-column matrix read
  as a vector; a scalar spread over any shape; the select on the comparison x ≥ 0 as an if-then-else; and the two
  spellings of a leaky clamp (branching on 0 ≤ x or on 0 < x), equal because both give 0 at 0.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

variable {α : Type}

/-- Two arrays with the same rows laid side by side: a column in the first a columns reads the first array. -/
theorem sideBySide_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin a) (hk : k'.val = k.val) :
    concatenate (⟨2, ![n, c]⟩ : Shape) (1 : Fin 2) [⟨⟨2, ![n, a]⟩, x⟩, ⟨⟨2, ![n, b]⟩, y⟩] h (ix2 p k) = x (ix2 p k') :=
  concatenate_pair_apply_left (1 : Fin 2) x y h (ix2 p k) rfl (ix2 p k') (fun d => match d with
    | ⟨0, _⟩ => rfl
    | ⟨1, _⟩ => hk)

/-- Two arrays with the same rows laid side by side: a column past the first a reads the second array, a columns
    earlier. -/
theorem sideBySide_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin b) (hk : k'.val + a = k.val) :
    concatenate (⟨2, ![n, c]⟩ : Shape) (1 : Fin 2) [⟨⟨2, ![n, a]⟩, x⟩, ⟨⟨2, ![n, b]⟩, y⟩] h (ix2 p k) = y (ix2 p k') :=
  concatenate_pair_apply_right (1 : Fin 2) x y h (ix2 p k) rfl rfl (ix2 p k') (fun d hd => match d, hd with
    | ⟨0, _⟩, _ => rfl
    | ⟨1, _⟩, hd => absurd rfl hd) hk

/-- A sum over a + b positions is the sum over the first a plus the sum over the last b. -/
theorem sum_split {M : Type*} [AddCommMonoid M] {a b c : Nat} (hc : a + b = c) (f : Fin c → M) :
    ∑ k : Fin c, f k = (∑ k : Fin a, f ⟨k.val, by omega⟩) + ∑ k : Fin b, f ⟨a + k.val, by omega⟩ := by
  subst hc
  rw [Fin.sum_univ_add]
  rfl

/-- A one-column matrix read as a vector: entry p is the matrix's entry (p, 0). -/
theorem colAsVec_apply {a : Nat} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A scalar spread over any shape reads the scalar everywhere. -/
theorem splat_apply {t : Shape} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply (![] : Fin 0 → Fin t.rank) h x j ix0 (fun a => a.elim0)

/-- The two leaky clamps agree: at 0 one takes the branch x, the other c · x, and both are 0. -/
theorem leaky_of_ge (c x : EReal) : (if 0 ≤ x then x else c * x) = (if 0 < x then x else c * x) := by
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- A select on the comparison "x ≥ 0" (0 as its f32 pattern) is the if-then-else on 0 ≤ x. -/
theorem select_oge_zero {β : Type} (x : EReal) (a b : β) :
    Scalar.select (FloatOps.cmpf (F := Ideal) (φ := .f32) .oge x (Ideal.ofBits .f32 0x00000000#32)) a b
      = if 0 ≤ x then a else b := by
  rw [Ideal.ofBits_zero_f32]
  show Scalar.select (Ideal.cmp .oge x 0) a b = _
  unfold Ideal.cmp
  by_cases h : (0 : EReal) ≤ x
  · rw [if_pos h]; simp only [decide_eq_true h, BitVec.ofBool_true]; exact select_one a b
  · rw [if_neg h]; simp only [decide_eq_false h, BitVec.ofBool_false]; exact select_zero a b

end Cert.Bridge

end
-- ==== Proof.LinearSpec.lean ====
/-
  The linear layer `out[n, o] = ∑ k, X[n, k] · W[o, k] + bias[o]` over the extended reals, as ONE function of the
  three argument arrays (`linear`), and the same rule for a block of 512 rows (`pointOut`): what one grid point's
  output block holds in terms of that point's three input blocks — 512 rows of `X`, the whole of `W`, and the
  bias laid out as a one-row matrix. Both are `linAt`, the entry at a row `n` and an output feature `o`.
-/
import Idealize.ShloMosaic.PureOps.Ideal
import Idealize.ShloMosaic.Lib.ValueIdx

noncomputable section

open scoped BigOperators

namespace Cert.Strassen

open Idealize.ShloMosaic Idealize.ShloMosaic.ValueIdx

/-- Entry `(n, o)` of the layer: row `n` of `X` against row `o` of `W` (the weight is stored `[out, in]`), plus
    the bias of feature `o`. -/
def linAt {N : Nat} (X : (⟨2, ![N, 2048]⟩ : Shape).Idx → EReal) (W : (⟨2, ![2048, 2048]⟩ : Shape).Idx → EReal)
    (b : Fin 2048 → EReal) (n : Fin N) (o : Fin 2048) : EReal :=
  (∑ k : Fin 2048, X (ix2 n k) * W (ix2 o k)) + b o

/-- The whole result array `[8192, 2048]` from the argument arrays. -/
def linear (X : (⟨2, ![8192, 2048]⟩ : Shape).Idx → EReal) (W : (⟨2, ![2048, 2048]⟩ : Shape).Idx → EReal)
    (b : (⟨1, ![2048]⟩ : Shape).Idx → EReal) : (⟨2, ![8192, 2048]⟩ : Shape).Idx → EReal :=
  fun i => linAt X W (fun o => b (ix1 o)) ⟨(i 0).val, idx2_lt0 i⟩ ⟨(i 1).val, idx2_lt1 i⟩

/-- One block of 512 result rows from the block of 512 rows of `X`, the whole weight and the bias as a `[1, 2048]` row. -/
def pointOut (x0 : (⟨2, ![512, 2048]⟩ : Shape).Idx → EReal) (x1 : (⟨2, ![2048, 2048]⟩ : Shape).Idx → EReal)
    (x2 : (⟨2, ![1, 2048]⟩ : Shape).Idx → EReal) : (⟨2, ![512, 2048]⟩ : Shape).Idx → EReal :=
  fun i => linAt x0 x1 (fun o => x2 (ix2 (0 : Fin 1) o)) ⟨(i 0).val, idx2_lt0 i⟩ ⟨(i 1).val, idx2_lt1 i⟩

theorem linear_ix2 (X : (⟨2, ![8192, 2048]⟩ : Shape).Idx → EReal) (W : (⟨2, ![2048, 2048]⟩ : Shape).Idx → EReal)
    (b : (⟨1, ![2048]⟩ : Shape).Idx → EReal) (n : Fin 8192) (o : Fin 2048) :
    linear X W b (ix2 n o) = (∑ k : Fin 2048, X (ix2 n k) * W (ix2 o k)) + b (ix1 o) := rfl

theorem pointOut_ix2 (x0 : (⟨2, ![512, 2048]⟩ : Shape).Idx → EReal) (x1 : (⟨2, ![2048, 2048]⟩ : Shape).Idx → EReal)
    (x2 : (⟨2, ![1, 2048]⟩ : Shape).Idx → EReal) (p : Fin 512) (o : Fin 2048) :
    pointOut x0 x1 x2 (ix2 p o) = (∑ k : Fin 2048, x0 (ix2 p k) * x1 (ix2 o k)) + x2 (ix2 (0 : Fin 1) o) := rfl

end Cert.Strassen

end
-- ==== Proof.BlocksToArray.lean ====
/-
  From the blocks to the array. The grid has 16 points; point `t` stages rows `512·t … 512·t + 511` of the input,
  the whole weight and the bias (laid out by the host as a one-row matrix), and writes back rows `512·t … 512·t + 511`
  of the result. If every point leaves in its output block the linear layer of its three input blocks
  (`Cert.Strassen.pointOut`), then the result array ends holding the linear layer of the three argument arrays
  (`Cert.Strassen.linear`): the 16 row blocks tile the 8192 rows, and entry `(p, o)` of block `t` is entry
  `(512·t + p, o)` of the whole.
-/
import proofs.«164071_g50525995270225_cont_8to1_c_264_21_alg».proof.Proof.LinearSpec
import proofs.«164071_g50525995270225_cont_8to1_c_264_21_alg».proof.Proof.Gen.KernelIdeal.Value
import Idealize.ShloMosaic.Lib.ValueLayout
import Idealize.ShloMosaic.Lib.Pipeline.Value
import Idealize.ShloMosaic.Lib.StableHlo.Run

noncomputable section

open scoped BigOperators

namespace Cert.Strassen.Blocks

open Idealize.ShloMosaic Idealize.ShloMosaic.TcCoe Idealize.SL.Sem Cert.KernelIdeal Cert.KernelIdeal.Gen
open Idealize.ShloMosaic.ValueIdx

/-- The block index maps over the grid: the input's and the result's row block is the point's own number, every other
    block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, o)` of a block of 512 rows that sits at rows `512·T …` of the whole, computed from the rows of `X` it
    stages, the whole weight and the bias row, is entry `(512·T + p, o)` of the whole layer. -/
theorem pointOut_eq_linear (X : S8192x2048.Idx → EReal) (W : S2048x2048.Idx → EReal) (b : S2048.Idx → EReal)
    (x0 : S512x2048.Idx → EReal) (x1 : S2048x2048.Idx → EReal) (x2 : S1x2048.Idx → EReal) (T : Nat)
    (h0 : ∀ (p : Fin 512) (k : Fin 2048) (n : Fin 8192), n.val = 512 * T + p.val → x0 (ix2 p k) = X (ix2 n k))
    (h1 : ∀ (o k : Fin 2048), x1 (ix2 o k) = W (ix2 o k))
    (h2 : ∀ o : Fin 2048, x2 (ix2 (0 : Fin 1) o) = b (ix1 o))
    (j : S512x2048.Idx) (i : S8192x2048.Idx)
    (hi0 : (i 0).val = 512 * T + (j 0).val) (hi1 : (i 1).val = (j 1).val) :
    pointOut x0 x1 x2 j = linear X W b i := by
  obtain ⟨p, o, rfl⟩ : ∃ (p : Fin 512) (o : Fin 2048), j = ix2 p o := ⟨j 0, j 1, eq_ix2 j⟩
  obtain ⟨n, o', rfl⟩ : ∃ (n : Fin 8192) (o' : Fin 2048), i = ix2 n o' := ⟨i 0, i 1, eq_ix2 i⟩
  obtain rfl : o' = o := Fin.ext hi1
  rw [pointOut_ix2, linear_ix2, h2 _]
  congr 1
  exact Finset.sum_congr rfl fun k _ => by rw [h0 p k n hi0, h1 _ k]

variable (m : (ℓ : Loc nD τ sig) → Buf (Elt Ideal) ℓ)

/-! ## The three input blocks of a point, read in the argument arrays -/

/-- The input's block at point `t` is rows `512·t … 512·t + 511` of the first argument. -/
theorem iblk0_apply (c : Dev nD) (t : Fin cfg0.N) (x : S512x2048.Idx) (k : S8192x2048.Idx)
    (hk0 : (k 0).val = 512 * t.val + (x 0).val) (hk1 : (k 1).val = (x 1).val) :
    (iblk m c 0 t : S512x2048.Idx → EReal) x = (m ((c : Thread nD τ).loc main_arg0) : S8192x2048.Idx → EReal) k := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * (x 0).val = (k 0).val; rw [e0, hk0]; omega
  | ⟨1, _⟩ => show win0_0.index t 1 * 2048 + 1 * (x 1).val = (k 1).val; rw [e1, hk1]; omega

/-- The weight's one block is the whole second argument, at every point. -/
theorem iblk1_apply (c : Dev nD) (t : Fin cfg0.N) (x : S2048x2048.Idx) :
    (iblk m c 1 t : S2048x2048.Idx → EReal) x = (m ((c : Thread nD τ).loc main_arg1) : S2048x2048.Idx → EReal) x := by
  obtain ⟨-, -, e2, e3, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * (x 0).val = (x 0).val; rw [e2]; omega
  | ⟨1, _⟩ => show win0_1.index t 1 * 2048 + 1 * (x 1).val = (x 1).val; rw [e3]; omega

/-- The one-row matrix the region finds as its third operand is the bias vector reshaped. -/
theorem V_bias (c : Dev nD) :
    (V m c main_v0 : S1x2048.Idx → EReal) = shapeCast S1x2048 (m ((c : Thread nD τ).loc main_arg2)) shapeCasts_S2048_S1x2048 := by
  dsimp only [Gen.V, Gen.hostOps0]; after_results; rfl

/-- The bias row's one block, read at `(0, o)`, is entry `o` of the third argument. -/
theorem iblk2_apply (c : Dev nD) (t : Fin cfg0.N) (o : Fin 2048) :
    (iblk m c 2 t : S1x2048.Idx → EReal) (ix2 (0 : Fin 1) o) = (m ((c : Thread nD τ).loc main_arg2) : S2048.Idx → EReal) (ix1 o) := by
  obtain ⟨-, -, -, -, e4, e5, -⟩ := idx_facts t
  unfold iblk
  rw [View.read_apply]
  show V m c main_v0 _ = m (c.tc.loc main_arg2) _
  rw [V_bias]
  refine Eq.trans (congrArg _ ?_) (shapeCast_a_1a_apply _ shapeCasts_S2048_S1x2048 (0 : Fin 1) o)
  funext a
  apply Fin.ext
  match a with
  | ⟨0, _⟩ => show win0_2.index t 0 * 1 + 1 * 0 = 0; rw [e4]
  | ⟨1, _⟩ => show win0_2.index t 1 * 2048 + 1 * o.val = o.val; rw [e5]; omega

/-! ## What a point writes back, and the cover -/

/-- What point `t` writes back is block `t` of the whole layer, once its output block holds the layer of its input blocks. -/
theorem flushed_eq (c : Dev nD) (t : Fin cfg0.N)
    (hpt : (outsAt0 m c t.val t.isLt).1 = Cert.Strassen.pointOut (iblk m c 0 t) (iblk m c 1 t) (iblk m c 2 t)) :
    (dats m 0 c).flushed 3 t = ((cfg0.win 3).blk t).view.read (Elt Ideal)
      (Cert.Strassen.linear (m ((c : Thread nD τ).loc main_arg0)) (m ((c : Thread nD τ).loc main_arg1))
        (m ((c : Thread nD τ).loc main_arg2))) := by
  rw [Cert.KernelIdeal.Value.flushed3, hpt]
  obtain ⟨-, -, -, -, -, -, e6, e7⟩ := idx_facts t
  funext j
  rw [View.read_apply]
  refine pointOut_eq_linear (m ((c : Thread nD τ).loc main_arg0)) (m ((c : Thread nD τ).loc main_arg1))
    (m ((c : Thread nD τ).loc main_arg2)) (iblk m c 0 t) (iblk m c 1 t) (iblk m c 2 t) t.val ?_ ?_ ?_ j _ ?_ ?_
  · intro p k n hn; exact iblk0_apply m c t (ix2 p k) (ix2 n k) hn rfl
  · intro o k; exact iblk1_apply m c t (ix2 o k)
  · intro o; exact iblk2_apply m c t o
  · show win0_3.index t 0 * 512 + 1 * (j 0).val = 512 * t.val + (j 0).val; rw [e6]; omega
  · show win0_3.index t 1 * 2048 + 1 * (j 1).val = (j 1).val; rw [e7]; omega

/-- An index of the result array is in point `t`'s block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v1).slice (win0_3.rect t)).set ↔ _
  rw [View.set_slice_whole, Rect.mem_set_unit]
  exact Iff.rfl

/-- The 16 row blocks tile the array: row `r` is in the block of point `r / 512`. -/
theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t 0 * 512 ≤ (i 0).val ∧ (i 0).val < win0_3.index t 0 * 512 + 512; rw [e6, ht]; omega
  | ⟨1, _⟩ => show win0_3.index t 1 * 2048 ≤ (i 1).val ∧ (i 1).val < win0_3.index t 1 * 2048 + 2048; rw [e7]; omega

/-! ## The array after the run -/

/-- If every grid point leaves in its output block the linear layer of its three input blocks, the result array ends
    holding the linear layer of the three argument arrays. -/
theorem final_of_points (m : (ℓ : Loc nD τ sig) → Buf (Elt Ideal) ℓ) (c : Dev nD)
    (hpt : ∀ t : Fin cfg0.N, (outsAt0 m c t.val t.isLt).1
      = Cert.Strassen.pointOut (iblk m c 0 t) (iblk m c 1 t) (iblk m c 2 t)) :
    (dats m 0 c).arrAt 3 cfg0.N
      = Cert.Strassen.linear (m ((c : Thread nD τ).loc main_arg0)) (m ((c : Thread nD τ).loc main_arg1))
          (m ((c : Thread nD τ).loc main_arg2)) :=
  (dats m 0 c).arrAt_eq_of_cover 3
    (Cert.Strassen.linear (m ((c : Thread nD τ).loc main_arg0)) (m ((c : Thread nD τ).loc main_arg1))
      (m ((c : Thread nD τ).loc main_arg2)))
    (fun t _ => flushed_eq m c t (hpt t)) cover

end Cert.Strassen.Blocks

end
-- ==== Proof.PointCases.lean ====
/-
  Strassen's step on a block of real data, and the two cases of the body at a grid point.

  With the input block's four quadrants, the weight's four quadrants and the seven scratch planes holding the weight's
  combinations, each output quadrant's combination of the seven half-size products collapses, term by term in the
  contraction index, to the two half contractions whose sum is the full contraction over 2048 positions: on real data
  the output block is the linear layer of the three input blocks (`outBlock_eq_pointOut`). A point's three input
  blocks hold real numbers when the argument arrays do; the weight's block is the same whole array at every point.
-/
import proofs.«164071_g50525995270225_cont_8to1_c_264_21_alg».proof.Proof.PayloadRead
import proofs.«164071_g50525995270225_cont_8to1_c_264_21_alg».proof.Proof.LibStrassenStep
import proofs.«164071_g50525995270225_cont_8to1_c_264_21_alg».proof.Proof.LibSideBySide
import proofs.«164071_g50525995270225_cont_8to1_c_264_21_alg».proof.Proof.LinearSpec
import proofs.«164071_g50525995270225_cont_8to1_c_264_21_alg».proof.Proof.BlocksToArray

set_option maxRecDepth 16384

noncomputable section

open scoped BigOperators

namespace Cert.KernelIdeal.Pieces

open Idealize.ShloMosaic Idealize.ShloMosaic.TcCoe Idealize.SL.Sem Idealize.ShloMosaic.ValueIdx
open Cert.KernelIdeal Cert.KernelIdeal.Gen

/-! ## Strassen's step on a block of real data is the plain product -/

theorem outBlock_eq_pointOut (x0 : Vec Ideal S512x2048 .f32) (x1 : Vec Ideal S2048x2048 .f32) (x2 : Vec Ideal S1x2048 .f32)
    (h0 : ∀ i, ∃ r : ℝ, x0 i = (r : EReal)) (h1 : ∀ i, ∃ r : ℝ, x1 i = (r : EReal)) (h2 : ∀ i, ∃ r : ℝ, x2 i = (r : EReal)) :
    outBlock (F := Ideal) x0 x2 (scratchOf x1) = Cert.Strassen.pointOut x0 x1 x2 := by
  choose a ha using h0
  choose w hw using h1
  choose b hb using h2
  obtain rfl : x0 = fun i => (a i : EReal) := funext ha
  obtain rfl : x1 = fun i => (w i : EReal) := funext hw
  obtain rfl : x2 = fun i => (b i : EReal) := funext hb
  funext j
  obtain ⟨P, Q, rfl⟩ : ∃ (P : Fin 512) (Q : Fin 2048), j = ix2 P Q := ⟨j 0, j 1, eq_ix2 j⟩
  rw [Cert.Strassen.pointOut_ix2, Cert.Bridge.sum_split (a := 1024) (b := 1024) (c := 2048) rfl]
  by_cases hP : P.val < 256
  · obtain ⟨p, rfl⟩ : ∃ p : Fin 256, P = rowLo p := ⟨⟨P.val, hP⟩, rfl⟩
    by_cases hQ : Q.val < 1024
    · obtain ⟨q, rfl⟩ : ∃ q : Fin 1024, Q = colLo q := ⟨⟨Q.val, hQ⟩, rfl⟩
      rw [outBlock_ll, pay11_apply]
      simp only [scratchOf_plane0, scratchOf_plane3, scratchOf_plane4, scratchOf_plane6]
      exact Cert.Strassen.Algebra.quad11 (fun k => a (ix2 (rowLo p) (colLo k))) (fun k => a (ix2 (rowLo p) (colHi k))) (fun k => a (ix2 (rowHi p) (colHi k))) (fun k => w (ix2 (colLo q) (colLo k))) (fun k => w (ix2 (colLo q) (colHi k))) (fun k => w (ix2 (colHi q) (colHi k))) (b (ix2 (0 : Fin 1) (colLo q)))
    · obtain ⟨q, rfl⟩ : ∃ q : Fin 1024, Q = colHi q :=
        ⟨⟨Q.val - 1024, by have := Q.isLt; omega⟩, Fin.ext (by show Q.val = 1024 + (Q.val - 1024); omega)⟩
      rw [outBlock_lh, pay12_apply]
      simp only [scratchOf_plane2, scratchOf_plane4]
      exact Cert.Strassen.Algebra.quad12 (fun k => a (ix2 (rowLo p) (colLo k))) (fun k => a (ix2 (rowLo p) (colHi k))) (fun k => w (ix2 (colHi q) (colLo k))) (fun k => w (ix2 (colHi q) (colHi k))) (b (ix2 (0 : Fin 1) (colHi q)))
  · obtain ⟨p, rfl⟩ : ∃ p : Fin 256, P = rowHi p :=
      ⟨⟨P.val - 256, by have := P.isLt; omega⟩, Fin.ext (by show P.val = 256 + (P.val - 256); omega)⟩
    by_cases hQ : Q.val < 1024
    · obtain ⟨q, rfl⟩ : ∃ q : Fin 1024, Q = colLo q := ⟨⟨Q.val, hQ⟩, rfl⟩
      rw [outBlock_hl, pay21_apply]
      simp only [scratchOf_plane1, scratchOf_plane3]
      exact Cert.Strassen.Algebra.quad21 (fun k => a (ix2 (rowHi p) (colLo k))) (fun k => a (ix2 (rowHi p) (colHi k))) (fun k => w (ix2 (colLo q) (colLo k))) (fun k => w (ix2 (colLo q) (colHi k))) (b (ix2 (0 : Fin 1) (colLo q)))
    · obtain ⟨q, rfl⟩ : ∃ q : Fin 1024, Q = colHi q :=
        ⟨⟨Q.val - 1024, by have := Q.isLt; omega⟩, Fin.ext (by show Q.val = 1024 + (Q.val - 1024); omega)⟩
      rw [outBlock_hh, pay22_apply]
      simp only [scratchOf_plane0, scratchOf_plane1, scratchOf_plane2, scratchOf_plane5]
      exact Cert.Strassen.Algebra.quad22 (fun k => a (ix2 (rowLo p) (colLo k))) (fun k => a (ix2 (rowHi p) (colLo k))) (fun k => a (ix2 (rowHi p) (colHi k))) (fun k => w (ix2 (colLo q) (colLo k))) (fun k => w (ix2 (colHi q) (colLo k))) (fun k => w (ix2 (colHi q) (colHi k))) (b (ix2 (0 : Fin 1) (colHi q)))

/-! ## The scratch after each point, and the point's output -/

variable (m : (ℓ : Loc nD τ sig) → Buf (Elt Ideal) ℓ)

/-- The weight's block is the same array at every point. -/
theorem iblk1_const (c : Dev nD) (t t' : Fin cfg0.N) : iblk m c 1 t = iblk m c 1 t' :=
  funext fun x => (Cert.Strassen.Blocks.iblk1_apply m c t x).trans (Cert.Strassen.Blocks.iblk1_apply m c t' x).symm

/-- The two cases of the body at a grid point's own memrefs and blocks. -/
theorem soutA_at (c : Dev nD) (t : Fin cfg0.N) (h0 : t.val % 16 = 0) :
    sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) = scratchOf (iblk m c 1 t) :=
  soutA_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

theorem outA_at (c : Dev nD) (t : Fin cfg0.N) (h0 : t.val % 16 = 0) :
    out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
      = outBlock (iblk m c 0 t) (iblk m c 2 t) (scratchOf (iblk m c 1 t)) :=
  outA_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

theorem outB_at (c : Dev nD) (t : Fin cfg0.N) (h0 : ¬t.val % 16 = 0) (xs0 : Vec Ideal S7x1024x1024 .bf16) :
    out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) xs0
      = outBlock (iblk m c 0 t) (iblk m c 2 t) xs0 :=
  outB_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) xs0

/-- The three input blocks of a point hold real numbers when the argument arrays do. -/
theorem iblk0_real (c : Dev nD) (t : Fin cfg0.N)
    (hX : ∀ i, ∃ r : ℝ, (m ((c : Thread nD τ).loc main_arg0) : S8192x2048.Idx → EReal) i = (r : EReal)) :
    ∀ x, ∃ r : ℝ, (iblk m c 0 t : S512x2048.Idx → EReal) x = (r : EReal) := fun x => by
  have hN : cfg0.N = 16 := N_0
  have ht : t.val < 16 := by have := t.isLt; omega
  have hx0 : (x 0).val < 512 := (x 0).isLt
  have hx1 : (x 1).val < 2048 := (x 1).isLt
  obtain ⟨r, hr⟩ := hX (ix2 (⟨512 * t.val + (x 0).val, by omega⟩ : Fin 8192) (⟨(x 1).val, hx1⟩ : Fin 2048))
  exact ⟨r, (Cert.Strassen.Blocks.iblk0_apply m c t x _ rfl rfl).trans hr⟩

theorem iblk1_real (c : Dev nD) (t : Fin cfg0.N)
    (hW : ∀ i, ∃ r : ℝ, (m ((c : Thread nD τ).loc main_arg1) : S2048x2048.Idx → EReal) i = (r : EReal)) :
    ∀ x, ∃ r : ℝ, (iblk m c 1 t : S2048x2048.Idx → EReal) x = (r : EReal) := fun x => by
  obtain ⟨r, hr⟩ := hW x
  exact ⟨r, (Cert.Strassen.Blocks.iblk1_apply m c t x).trans hr⟩

theorem iblk2_real (c : Dev nD) (t : Fin cfg0.N)
    (hb : ∀ i, ∃ r : ℝ, (m ((c : Thread nD τ).loc main_arg2) : S2048.Idx → EReal) i = (r : EReal)) :
    ∀ x, ∃ r : ℝ, (iblk m c 2 t : S1x2048.Idx → EReal) x = (r : EReal) := fun x => by
  obtain ⟨z, o, rfl⟩ : ∃ (z : Fin 1) (o : Fin 2048), x = ix2 z o := ⟨x 0, x 1, eq_ix2 x⟩
  obtain rfl : z = 0 := Subsingleton.elim _ _
  obtain ⟨r, hr⟩ := hb (ix1 o)
  exact ⟨r, (Cert.Strassen.Blocks.iblk2_apply m c t o).trans hr⟩

end Cert.KernelIdeal.Pieces

end
-- ==== Proof.PointValue.lean ====
/-
  Every grid point leaves the linear layer of its input blocks in its output block.

  The scratch is filled at the first point from the weight block and never written again, so after every point it
  holds the seven combinations of the weight's quadrants (`scratch_after`, by induction on the point). At the first
  point the body reads back the scratch it has just filled; at a later point it reads what the point before left. Either
  way the output block is Strassen's step on the point's input block, the bias row and the weight's combinations, which
  on real data is the plain product (`point_out`).
-/
import proofs.«164071_g50525995270225_cont_8to1_c_264_21_alg».proof.Proof.PointCases

set_option maxRecDepth 16384

noncomputable section

namespace Cert.KernelIdeal.Pieces

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- After every point the scratch holds the seven combinations of the weight block's quadrants: filled at the first
    point, carried unchanged afterwards. -/
theorem scratch_at (c : Dev nD) : ∀ (n : ℕ) (t : Fin cfg0.N), t.val = n →
    (outsAt0 m c t.val t.isLt).2 = scratchOf (iblk m c 1 t) := by
  intro n
  induction n with
  | zero =>
    intro t ht
    have h0 : t.val % 16 = 0 := by rw [ht]
    rw [outsAt0_A m c t h0]
    dsimp only
    exact soutA_at m c t h0
  | succ n ih =>
    intro t ht
    have hN : cfg0.N = 16 := N_0
    have hlt := t.isLt
    have h0 : ¬t.val % 16 = 0 := by omega
    rw [outsAt0_B m c t h0]
    dsimp only [sout0_B_0]
    rw [ih ⟨t.val - 1, by omega⟩ (by show t.val - 1 = n; omega), iblk1_const m c _ t]

/-- What point `t` leaves in its output block is the linear layer of its three input blocks. -/
theorem point_out (c : Dev nD)
    (hX : ∀ i, ∃ r : ℝ, (m ((c : Thread nD τ).loc main_arg0) : S8192x2048.Idx → EReal) i = (r : EReal))
    (hW : ∀ i, ∃ r : ℝ, (m ((c : Thread nD τ).loc main_arg1) : S2048x2048.Idx → EReal) i = (r : EReal))
    (hb : ∀ i, ∃ r : ℝ, (m ((c : Thread nD τ).loc main_arg2) : S2048.Idx → EReal) i = (r : EReal))
    (t : Fin cfg0.N) :
    (outsAt0 m c t.val t.isLt).1 = Cert.Strassen.pointOut (iblk m c 0 t) (iblk m c 1 t) (iblk m c 2 t) := by
  have hfin : outBlock (F := Ideal) (iblk m c 0 t) (iblk m c 2 t) (scratchOf (iblk m c 1 t))
      = Cert.Strassen.pointOut (iblk m c 0 t) (iblk m c 1 t) (iblk m c 2 t) :=
    outBlock_eq_pointOut _ _ _ (iblk0_real m c t hX) (iblk1_real m c t hW) (iblk2_real m c t hb)
  have hN : cfg0.N = 16 := N_0
  have hlt := t.isLt
  by_cases h0 : t.val % 16 = 0
  · rw [outsAt0_A m c t h0]
    dsimp only
    exact (outA_at m c t h0).trans hfin
  · rw [outsAt0_B m c t h0]
    dsimp only
    rw [outB_at m c t h0, scratch_at m c (t.val - 1) ⟨t.val - 1, by omega⟩ rfl, iblk1_const m c _ t]
    exact hfin

end Cert.KernelIdeal.Pieces

end
-- ==== Proof.RefLinear.lean ====
/-
  The reference program computes the linear layer of the specification: read at the entry `(n, o)`, its chain
  transpose, matrix product, transpose, two broadcasts and an addition is
  `∑ k, W[o, k] · X[n, k] + bias[o]`, and the specification's entry is the same sum with the two factors of each
  product in the other order.
-/
import proofs.«164071_g50525995270225_cont_8to1_c_264_21_alg».proof.Proof.LinearSpec
import proofs.«164071_g50525995270225_cont_8to1_c_264_21_alg».proof.Proof.Gen.ReferenceIdeal.Read

noncomputable section

open scoped BigOperators

namespace Cert.Strassen.Ref

open Idealize.ShloMosaic Idealize.ShloMosaic.ValueIdx

/-- The second transpose reads the product at the swapped pair. -/
theorem idx_v2 (n : Fin 8192) (o : Fin 2048) :
    Cert.ReferenceIdeal.Read.idx_main_v2 (ix2 n o) = ix2 o n :=
  funext fun a => Fin.ext (by match a with | ⟨0, _⟩ => rfl | ⟨1, _⟩ => rfl)

/-- The product's left operand (the weight) is read at row `o`, column `k`. -/
theorem lidx_v1 (n : Fin 8192) (o : Fin 2048) (k : Fin 2048) :
    Cert.ReferenceIdeal.Read.lidx_main_v1 (ix2 o n) k = ix2 o k :=
  funext fun a => Fin.ext (by match a with | ⟨0, _⟩ => rfl | ⟨1, _⟩ => rfl)

/-- The product's right operand is the transposed input, read back at row `n`, column `k` of the input. -/
theorem ridx_v1 (n : Fin 8192) (o : Fin 2048) (k : Fin 2048) :
    Cert.ReferenceIdeal.Read.idx_main_v0 (Cert.ReferenceIdeal.Read.ridx_main_v1 (ix2 o n) k) = ix2 n k :=
  funext fun a => Fin.ext (by match a with | ⟨0, _⟩ => rfl | ⟨1, _⟩ => rfl)

/-- The two broadcasts read the bias at the output feature `o`. -/
theorem idx_v3_v4 (n : Fin 8192) (o : Fin 2048) :
    Cert.ReferenceIdeal.Read.idx_main_v3 (Cert.ReferenceIdeal.Read.idx_main_v4 (ix2 n o)) = ix1 o :=
  funext fun a => Fin.ext (by match a with | ⟨0, _⟩ => rfl)

/-- The reference's result is the specification's linear layer of the three argument arrays. -/
theorem ref_eq_linear (x0 : FVec Ideal Cert.ReferenceIdeal.S8192x2048 .f32) (x1 : FVec Ideal Cert.ReferenceIdeal.S2048x2048 .f32)
    (x2 : FVec Ideal Cert.ReferenceIdeal.S2048 .f32) :
    Cert.ReferenceIdeal.Read.val_main_v5 (F := Ideal) x0 x1 x2 = Cert.Strassen.linear x0 x1 x2 := by
  funext i
  obtain ⟨n, o, rfl⟩ : ∃ (n : Fin 8192) (o : Fin 2048), i = ix2 n o := ⟨i 0, i 1, eq_ix2 i⟩
  rw [Cert.ReferenceIdeal.Read.val_main_v5_apply, Cert.ReferenceIdeal.Read.val_main_v2_apply,
    Cert.ReferenceIdeal.Read.val_main_v1_apply, Cert.ReferenceIdeal.Read.val_main_v4_apply,
    Cert.ReferenceIdeal.Read.val_main_v3_apply, Cert.Strassen.linear_ix2, idx_v2, idx_v3_v4, Ideal.addf_def]
  congr 1
  refine Finset.sum_congr rfl fun k _ => ?_
  rw [Cert.ReferenceIdeal.Read.val_main_v0_apply, lidx_v1 n o k, ridx_v1 n o k, mul_comm]

end Cert.Strassen.Ref

end
-- ==== Proof.FiniteInputs.lean ====
/-
  The precondition `finite_inputs` says of each of the three argument arrays that every entry's absolute value is
  below `+∞` (a reduction by `and` of the entrywise comparison `|x| < +∞`, the three joined by `and`). Over the
  extended reals that is: every entry is a real number. One lemma reads a single such reduction back at an entry; the theorem splits the conjunction.
-/
import proofs.«164071_g50525995270225_cont_8to1_c_264_21_alg».proof.Proof.Gen.Pre_finite_inputs
import Idealize.ShloMosaic.Lib.ReduceAll
import Idealize.ShloMosaic.Lib.ValueIdx
import Idealize.ShloMosaic.PureOps.Ideal.Laws

noncomputable section

namespace Cert.Strassen.Ref

open Idealize.ShloMosaic Idealize.ShloMosaic.ValueIdx

/-- The word `0x7F800000` is `+∞`. -/
theorem inf_word : Ideal.ofBits .f32 0x7F800000#32 = (⊤ : EReal) := by simp [Ideal.ofBits, Ideal.ieee]

/-- An extended real whose absolute value `max x (-x)` is below `+∞` is a real number. -/
theorem real_of_abs_lt_top (x : EReal) (h : max x (-x) < ⊤) : ∃ r : ℝ, x = (r : EReal) := by
  have h1 : x ≠ ⊤ := by
    intro e; rw [e] at h; simp at h
  have h2 : x ≠ ⊥ := by
    intro e; rw [e] at h; simp at h
  exact ⟨x.toReal, (EReal.coe_toReal h1 h2).symm⟩

/-- One reduction by `and` of `|x| < +∞` over all entries that came out true: every entry of `x` is a real number. -/
theorem real_of_all_lt_inf {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ix0 = 1#1)
    (i : s.Idx) : ∃ r : ℝ, x i = (r : EReal) := by
  haveI : Subsingleton (⟨0, ![]⟩ : Shape).Idx := ⟨fun a b => funext fun d => d.elim0⟩
  have hi := Host.reduce_andi_all _ _ hr hu ix0 e i
  have hc : Ideal.cmp .olt (max (x i) (-(x i))) (Ideal.ofBits .f32 0x7F800000#32) = 1#1 := hi
  rw [inf_word] at hc
  refine real_of_abs_lt_top (x i) ?_
  by_contra hn
  simp [Ideal.cmp, hn] at hc

/-- Under the precondition every entry of the input, of the weight and of the bias is a real number. -/
theorem real_of_finite [Cert.Pre_finite_inputs.Facts] (X : FVec Ideal Cert.Pre_finite_inputs.S8192x2048 .f32)
    (W : FVec Ideal Cert.Pre_finite_inputs.S2048x2048 .f32) (b : FVec Ideal Cert.Pre_finite_inputs.S2048 .f32)
    (h : Cert.Pre_finite_inputs.fn (F := Ideal) X W b = fun _ => 1#1) :
    (∀ i, ∃ r : ℝ, X i = (r : EReal)) ∧ (∀ i, ∃ r : ℝ, W i = (r : EReal)) ∧ (∀ i, ∃ r : ℝ, b i = (r : EReal)) := by
  have h0 := congrFun h ValueIdx.ix0
  dsimp only [Cert.Pre_finite_inputs.fn] at h0
  obtain ⟨hXW, hb⟩ := IntOp.andi_eq_one.1 h0
  obtain ⟨hX, hW⟩ := IntOp.andi_eq_one.1 hXW
  exact ⟨real_of_all_lt_inf X _ _ _ hX, real_of_all_lt_inf W _ _ _ hW, real_of_all_lt_inf b _ _ _ hb⟩

end Cert.Strassen.Ref

end
-- ==== Proof.lean ====
/-
  The proof of `Cert.Claim`: a Pallas kernel computing `out = input · weightᵀ + bias` (input f32[8192, 2048], weight
  f32[2048, 2048] stored `[out, in]`, bias f32[2048]) by ONE LEVEL OF STRASSEN'S ALGORITHM per block of 512 rows — seven
  half-size products instead of eight, the seven weight-side combinations built once into a scratch at the first grid
  point and reused by the other fifteen — against `jnp.matmul(weight, input.T).T + bias`.

  On the extended reals, with every operation exact and every change of float format the identity, the two agree
  when the inputs are finite: Strassen's identities are distributivity and cancellation, valid for real numbers (and
  false at infinities, which is where the precondition is used). The road: the reference's run is the linear layer
  `linear` of the three arrays (Proof/RefLinear.lean); the precondition makes every entry real (Proof/FiniteInputs.lean);
  what a grid point's body leaves in its output block and in the scratch are pure functions of its loads
  (Proof/KernelPieces.lean), read entry by entry as sums (Proof/PayloadRead.lean); on real data the seven products
  collapse to the plain contraction (Proof/LibStrassenStep.lean), so every point leaves the linear layer of its three
  input blocks, the scratch holding the weight's combinations after every point (Proof/PointValue.lean); and the
  sixteen row blocks tile the result (Proof/BlocksToArray.lean). The idealization rewrote nothing, so `preserves` is
  trivial; the frames are the generated ones, the reference's its generated run.
-/
import proofs.«164071_g50525995270225_cont_8to1_c_264_21_alg».proof.Defs
import proofs.«164071_g50525995270225_cont_8to1_c_264_21_alg».proof.Proof.Gen.Kernel
import proofs.«164071_g50525995270225_cont_8to1_c_264_21_alg».proof.Proof.Gen.Kernel.Frame
import proofs.«164071_g50525995270225_cont_8to1_c_264_21_alg».proof.Proof.Gen.KernelIdeal
import proofs.«164071_g50525995270225_cont_8to1_c_264_21_alg».proof.Proof.Gen.KernelIdeal.Frame
import proofs.«164071_g50525995270225_cont_8to1_c_264_21_alg».proof.Proof.Gen.KernelIdeal.Value
import proofs.«164071_g50525995270225_cont_8to1_c_264_21_alg».proof.Proof.Gen.ReferenceIdeal
import proofs.«164071_g50525995270225_cont_8to1_c_264_21_alg».proof.Proof.Gen.ReferenceIdeal.Run
import proofs.«164071_g50525995270225_cont_8to1_c_264_21_alg».proof.Proof.Gen.ReferenceIdeal.Read
import proofs.«164071_g50525995270225_cont_8to1_c_264_21_alg».proof.Proof.Gen.Pre_finite_inputs
import proofs.«164071_g50525995270225_cont_8to1_c_264_21_alg».proof.Proof.PointValue
import proofs.«164071_g50525995270225_cont_8to1_c_264_21_alg».proof.Proof.BlocksToArray
import proofs.«164071_g50525995270225_cont_8to1_c_264_21_alg».proof.Proof.RefLinear
import proofs.«164071_g50525995270225_cont_8to1_c_264_21_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the linear layer of the (agreeing, finite) argument arrays. -/
theorem algebraic : Cert.algebraic_KernelIdeal_ReferenceIdeal := by
  intro m ρ m' ρ' hpre hagree
  have hreal := fun c : Dev Cert.KernelIdeal.nD => Cert.Strassen.Ref.real_of_finite _ _ _ (hpre c)
  refine ⟨fun c => Cert.Strassen.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Value.run_blocks (F := Ideal) m ρ)
    exact Cert.Strassen.Blocks.final_of_points m c
      (Cert.KernelIdeal.Pieces.point_out m c (hreal c).1 (hreal c).2.1 (hreal c).2.2)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.Strassen.Ref.ref_eq_linear, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
